-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A0A974#32 ((268435456 / 13366475 : ℝ) : EReal)
  ∧ IdealRules.named_const.Statement Cert.KernelIdeal.κ "inv_temp" .f32 0x41A0A974#32 ((268435456 / 13366475 : ℝ) : EReal)
  ∧ IdealRules.named_const.Statement Cert.KernelIdeal.κ "inv_temp" .f32 0x41A0A974#32 ((268435456 / 13366475 : ℝ) : EReal)
  ∧ IdealRules.named_const.Statement Cert.KernelIdeal.κ "inv_temp" .f32 0x41A0A974#32 ((268435456 / 13366475 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S1048576x128 : Shape := ⟨2, ![1048576, 128]⟩
abbrev S1048576 : Shape := ⟨1, ![1048576]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S1048576x128 : S_.BroadcastsInDim S1048576x128 (![] : Fin 0 → Fin S1048576x128.rank)
  reducesTo_S1048576x128_S_d0_1 : S1048576x128.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S128x128 .f32) (main_arg1 : FVec F S1048576x128 .f32) (main_arg2 : FVec F S1048576x128 .f32) (main_arg3 : FVec F S1048576 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_v9 : FVec F S1048576x128 .f32 := Host.absf main_arg2
  let main_cst_2 : FVec F S_ .f32 := constant S_ .f32 0x7F800000#32
  let main_v10 : FVec F S1048576x128 .f32 := broadcastInDim S1048576x128 ![] bcast_S_S1048576x128 main_cst_2
  let main_v11 : IVec S1048576x128 1 := cmpf .olt main_v9 main_v10
  let main_c_3 : IVec S_ 1 := constantI S_ 1 1#1
  let main_v12 : IVec S_ 1 := (fun x v => Host.reduce IntOp.andi x v reducesTo_S1048576x128_S_d0_1 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S128x128 : Shape := ⟨2, ![128, 128]⟩
abbrev S1048576x128 : Shape := ⟨2, ![1048576, 128]⟩
abbrev S1048576 : Shape := ⟨1, ![1048576]⟩
abbrev S_ : Shape := ⟨0, ![]⟩
abbrev S128 : Shape := ⟨1, ![128]⟩
abbrev S128x1 : Shape := ⟨2, ![128, 1]⟩
abbrev S2x128x128 : Shape := ⟨3, ![2, 128, 128]⟩
abbrev S2x128x1 : Shape := ⟨3, ![2, 128, 1]⟩
abbrev S8192x128 : Shape := ⟨2, ![8192, 128]⟩
abbrev S1x128x128 : Shape := ⟨3, ![1, 128, 128]⟩
abbrev S1x128x1 : Shape := ⟨3, ![1, 128, 1]⟩
abbrev S128x8192 : Shape := ⟨2, ![128, 8192]⟩
abbrev S1x1048576 : Shape := ⟨2, ![1, 1048576]⟩
abbrev S16384x128 : Shape := ⟨2, ![16384, 128]⟩
abbrev S1x16384 : Shape := ⟨2, ![1, 16384]⟩
abbrev S128x16384 : Shape := ⟨2, ![128, 16384]⟩
abbrev S16384 : Shape := ⟨1, ![16384]⟩

abbrev nBuf : Space → Nat
  | .hbm => 31
  | .vmem => 19
  | .smem => 0
  | _ => 0

abbrev bufTy : (tb : Table) → Fin (tcTables nBuf tb) → BufTy
  | .hbm, ⟨0, _⟩ => ⟨S128x128, .f32⟩
  | .hbm, ⟨1, _⟩ => ⟨S1048576x128, .f32⟩
  | .hbm, ⟨2, _⟩ => ⟨S1048576x128, .f32⟩
  | .hbm, ⟨3, _⟩ => ⟨S1048576, .f32⟩
  | .hbm, ⟨4, _⟩ => ⟨S128x128, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x128, .f32⟩
  | .hbm, ⟨13, _⟩ => ⟨S128x128, .f32⟩
  | .hbm, ⟨14, _⟩ => ⟨S2x128x128, .f32⟩
  | .hbm, ⟨15, _⟩ => ⟨S2x128x1, .f32⟩
  | .hbm, ⟨16, _⟩ => ⟨S1x128x128, .f32⟩
  | .hbm, ⟨17, _⟩ => ⟨S128x128, .f32⟩
  | .hbm, ⟨18, _⟩ => ⟨S1x128x128, .f32⟩
  | .hbm, ⟨19, _⟩ => ⟨S128x128, .f32⟩
  | .hbm, ⟨20, _⟩ => ⟨S128x128, .f32⟩
  | .hbm, ⟨21, _⟩ => ⟨S1x128x1, .f32⟩
  | .hbm, ⟨22, _⟩ => ⟨S128x1, .f32⟩
  | .hbm, ⟨23, _⟩ => ⟨S1x128x1, .f32⟩
  | .hbm, ⟨24, _⟩ => ⟨S128x1, .f32⟩
  | .hbm, ⟨25, _⟩ => ⟨S128x1, .f32⟩
  | .hbm, ⟨26, _⟩ => ⟨S128x128, .f32⟩
  | .hbm, ⟨27, _⟩ => ⟨S128x128, .f32⟩
  | .hbm, ⟨28, _⟩ => ⟨S1x1048576, .f32⟩
  | .hbm, ⟨29, _⟩ => ⟨S1x1048576, .f32⟩
  | .hbm, ⟨30, _⟩ => ⟨S1048576, .f32⟩
  | .local _ .vmem, ⟨0, _⟩ => ⟨S128x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S1x128x128, .f32⟩
  | .local _ .vmem, ⟨6, _⟩ => ⟨S1x128x128, .f32⟩
  | .local _ .vmem, ⟨7, _⟩ => ⟨S1x128x1, .f32⟩
  | .local _ .vmem, ⟨8, _⟩ => ⟨S1x128x1, .f32⟩
  | .local _ .vmem, ⟨9, _⟩ => ⟨S128x128, .f32⟩
  | .local _ .vmem, ⟨10, _⟩ => ⟨S128x1, .f32⟩
  | .local _ .vmem, ⟨11, _⟩ => ⟨S128x128, .f32⟩
  | .local _ .vmem, ⟨12, _⟩ => ⟨S16384x128, .f32⟩
  | .local _ .vmem, ⟨13, _⟩ => ⟨S16384x128, .f32⟩
  | .local _ .vmem, ⟨14, _⟩ => ⟨S1x16384, .f32⟩
  | .local _ .vmem, ⟨15, _⟩ => ⟨S1x16384, .f32⟩
  | .local _ .vmem, ⟨16, _⟩ => ⟨S128x1, .f32⟩
  | .local _ .vmem, ⟨17, _⟩ => ⟨S1x16384, .f32⟩
  | .local _ .vmem, ⟨18, _⟩ => ⟨S1x16384, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v31 : BitVec 1 := Scalar.cmpi .eq arg1 c63_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  reduces_S128x8192_S128 : S128x8192.Reduces [1] S128
  shapeCasts_S128_S128x1 : S128.ShapeCasts S128x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  slices_S2x128x128_S1x128x128_0_0_0 : S2x128x128.Slices ![0, 0, 0] S1x128x128
  slices_S2x128x128_S1x128x128_1_0_0 : S2x128x128.Slices ![1, 0, 0] S1x128x128
  slices_S2x128x1_S1x128x1_0_0_0 : S2x128x1.Slices ![0, 0, 0] S1x128x1
  slices_S2x128x1_S1x128x1_1_0_0 : S2x128x1.Slices ![1, 0, 0] S1x128x1
  shapeCasts_S1048576_S1x1048576 : S1048576.ShapeCasts S1x1048576
  inb_S16384x128_S16384x128_0_0 : ∀ a, (![0, 0] : Fin 2 → Nat) a + S16384x128.size a ≤ S16384x128.size a
  h_S16384x128 : 0 < S16384x128.numel
  transposes_S16384x128_p1_0_S128x16384 : S16384x128.Transposes [1, 0] S128x16384
  broadcasts_S128x1_S128x16384 : S128x1.Broadcasts S128x16384
  reduces_S128x16384_S16384 : S128x16384.Reduces [0] S16384
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  shapeCasts_S1x1048576_S1048576 : S1x1048576.ShapeCasts S1048576
  dot_S128x128_S128x8192_S128x8192_1_0_0_1_n_n_wf : DotDims.WF S128x128 S128x8192 S128x8192 [1] [0] [0] [1] [] []
  dot_S128x8192_S8192x128_S128x128_1_0_0_1_n_n_wf : DotDims.WF S128x8192 S8192x128 S128x128 [1] [0] [0] [1] [] []
  dot_S128x128_S128x16384_S128x16384_1_0_0_1_n_n_wf : DotDims.WF S128x128 S128x16384 S128x16384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S1048576x128.size a
  hwx0_2 : ∀ i : grid0.Coords, EltTy.bits .f32 = 32 ∨ (Rect.block (s := S1048576x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S2x128x1.size a
  hwx0_4 : ∀ i : grid0.Coords, EltTy.bits .f32 = 32 ∨ (Rect.block (s := S2x128x1) S1x128x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S1048576x128.size a
  hwx1_1 : ∀ i : grid1.Coords, EltTy.bits .f32 = 32 ∨ (Rect.block (s := S1048576x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x1048576.size a
  hwx1_2 : ∀ i : grid1.Coords, EltTy.bits .f32 = 32 ∨ (Rect.block (s := S1x1048576) S1x16384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16384.size a ≤ S1x1048576.size a
  hwx1_4 : ∀ i : grid1.Coords, EltTy.bits .f32 = 32 ∨ (Rect.block (s := S1x1048576) S1x16384.size (cc1_transform_4 i) (hinb1_4 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf
def dot_S128x128_S128x16384_S128x16384_1_0_0_1_n_n : DotDims S128x128 S128x16384 S128x16384 where
  lhsContracting := [1]
  rhsContracting := [0]
  lhsNonContracting := [0]
  rhsNonContracting := [1]
  lhsBatch := []
  rhsBatch := []
  wf := dot_S128x128_S128x16384_S128x16384_1_0_0_1_n_n_wf

abbrev win0_0 : Pipeline.Window sig grid0 :=
  Pipeline.Window.ofSpec (Memref.whole main_v4) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x128x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v4) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16384x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x16384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x128 : Shape := ⟨2, ![128, 128]⟩
abbrev S1048576x128 : Shape := ⟨2, ![1048576, 128]⟩
abbrev S1048576 : Shape := ⟨1, ![1048576]⟩
abbrev S_ : Shape := ⟨0, ![]⟩
abbrev S128 : Shape := ⟨1, ![128]⟩
abbrev S128x1 : Shape := ⟨2, ![128, 1]⟩
abbrev S128x1048576 : Shape := ⟨2, ![128, 1048576]⟩

abbrev nBuf : Space → Nat
  | .hbm => 37
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S1048576x128, .f32⟩
  | .hbm, ⟨2, _⟩ => ⟨S1048576x128, .f32⟩
  | .hbm, ⟨3, _⟩ => ⟨S1048576, .f32⟩
  | .hbm, ⟨4, _⟩ => ⟨S128x128, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x128, .f32⟩
  | .hbm, ⟨13, _⟩ => ⟨S128x128, .f32⟩
  | .hbm, ⟨14, _⟩ => ⟨S128x1048576, .f32⟩
  | .hbm, ⟨15, _⟩ => ⟨S128x1048576, .f32⟩
  | .hbm, ⟨16, _⟩ => ⟨S_, .f32⟩
  | .hbm, ⟨17, _⟩ => ⟨S128x1048576, .f32⟩
  | .hbm, ⟨18, _⟩ => ⟨S128x1048576, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128x1, .f32⟩
  | .hbm, ⟨25, _⟩ => ⟨S128x1048576, .f32⟩
  | .hbm, ⟨26, _⟩ => ⟨S128x1048576, .f32⟩
  | .hbm, ⟨27, _⟩ => ⟨S128x1048576, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S128x1048576, .f32⟩
  | .hbm, ⟨32, _⟩ => ⟨S128x1048576, .f32⟩
  | .hbm, ⟨33, _⟩ => ⟨S128x128, .f32⟩
  | .hbm, ⟨34, _⟩ => ⟨S_, .f32⟩
  | .hbm, ⟨35, _⟩ => ⟨S1048576, .f32⟩
  | .hbm, ⟨36, _⟩ => ⟨S1048576, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  transposes_S1048576x128_S128x1048576_1_0 : S1048576x128.Transposes [1, 0] S128x1048576
  bcast_S_S128x1048576 : S_.BroadcastsInDim S128x1048576 (![] : Fin 0 → Fin S128x1048576.rank)
  reducesTo_S128x1048576_S128_d1 : S128x1048576.ReducesTo [1] S128
  bcast_S_S128 : S_.BroadcastsInDim S128 (![] : Fin 0 → Fin S128.rank)
  bcast_S128x1_S128x1048576_0_1 : S128x1.BroadcastsInDim S128x1048576 (![0, 1] : Fin 2 → Fin S128x1048576.rank)
  reducesTo_S128x1048576_S1048576_d0 : S128x1048576.ReducesTo [0] S1048576
  dot_S128x128_S128x1048576_S128x1048576_1_0_0_1_n_n_wf : DotDims.WF S128x128 S128x1048576 S128x1048576 [1] [0] [0] [1] [] []
  dot_S128x1048576_S1048576x128_S128x128_1_0_0_1_n_n_wf : DotDims.WF S128x1048576 S1048576x128 S128x128 [1] [0] [0] [1] [] []

variable [Facts₀]

def dot_S128x128_S128x1048576_S128x1048576_1_0_0_1_n_n : DotDims S128x128 S128x1048576 S128x1048576 where
  lhsContracting := [1]
  rhsContracting := [0]
  lhsNonContracting := [0]
  rhsNonContracting := [1]
  lhsBatch := []
  rhsBatch := []
  wf := dot_S128x128_S128x1048576_S128x1048576_1_0_0_1_n_n_wf
def dot_S128x1048576_S1048576x128_S128x128_1_0_0_1_n_n : DotDims S128x1048576 S1048576x128 S128x128 where
  lhsContracting := [1]
  rhsContracting := [0]
  lhsNonContracting := [0]
  rhsNonContracting := [1]
  lhsBatch := []
  rhsBatch := []
  wf := dot_S128x1048576_S1048576x128_S128x128_1_0_0_1_n_n_wf

class Facts : Prop extends Facts₀ where

variable [Facts]
-- ==== Proof.IdealStatsRuns.lean ====
import proofs.«157376_j6725918785543_2_alg».proof.Proof.Gen.KernelIdeal.Launch
import proofs.«157376_j6725918785543_2_alg».proof.Proof.Gen.KernelIdeal.Skeleton
import proofs.«157376_j6725918785543_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The statistics kernel (custom_call 0): what its three control cases share

The kernel accumulates, over the 64 key tiles of each half of the grid, a row sum and a weighted sum in two
scratch buffers; it zeroes both at the first tile of a half and copies both out at the last. Everything below is
stated at a parameter `V`: the TensorCore's buffer contents when the region is entered. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the key window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the value window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions, in closed form over the grid -/

/-- "This is the first key tile of the half": the condition under which the body zeroes both accumulators, as
    the body computes it from the second grid coordinate. -/
abbrev cond0_0 (i : grid0.Coords) : Prop := (Scalar.cmpi .ne (Scalar.extui (Scalar.cmpi .eq (BitVec.ofNat 32 (i 1).val) 0#32)) 0#32) = 1#1
/-- It holds exactly at the points whose position is a multiple of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last key tile of the half": the condition under which the body copies both accumulators out. -/
abbrev cond0_1 (i : grid0.Coords) : Prop := k0_cond2 i = 1#1
/-- It holds exactly at the points whose position is 63 modulo 64. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

/-- The three inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last tile of a half the weighted-sum output is idle: nothing is stored into it, -/
theorem idleAt0_3 : ∀ t : Fin cfg0.N, ¬cond0_1 (grid0.coords t) → cfg0.idle 3 (grid0.coords t) = true := by decide +kernel
/-- and its block is not written back. -/
theorem noFlush0_3 : ∀ t : Fin cfg0.N, ¬cond0_1 (grid0.coords t) → (cfg0.win 3).flush t = false := by decide +kernel
/-- At the last tile of a half it is live. -/
theorem liveAt0_3 : ∀ t : Fin cfg0.N, cond0_1 (grid0.coords t) → cfg0.idle 3 (grid0.coords t) = false := by decide +kernel
/-- The same three facts for the row-sum output. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated (the choice does not matter:
    the contents are read back through the same view they are written through). -/
abbrev VO0_3 : View sig .tc .vmem S1x128x128 .f32 := (Memref.whole cc0_stg3_0 : Memref sig .tc .vmem S1x128x128 .f32).view
abbrev VO0_4 : View sig .tc .vmem S1x128x1 .f32 := (Memref.whole cc0_stg4_0 : Memref sig .tc .vmem S1x128x1 .f32).view
/-- Each window's current staging memref at point `t`, spelled as the pipeline passes it, and its wholeness. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S128x128 .f32 := Memref.whole cc0_scratch0
abbrev scM0_1 : Memref sig .tc .vmem S128x1 .f32 := Memref.whole cc0_scratch1
/-- The accumulators as views: what they hold is stated through these. -/
abbrev VS0_0 : View sig .tc .vmem S128x128 .f32 := scM0_0.view
abbrev VS0_1 : View sig .tc .vmem S128x1 .f32 := scM0_1.view

/-- The core's scoped buffers that region 0 neither stages through nor accumulates in (the other region's staging
    buffers), each whole at some contents: they ride along untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's resting invariant with the two accumulators as memrefs owned at some contents: what the body is
    handed at a point and hands back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

end Cert.KernelIdeal.Hand

end
-- ==== Proof.IdealStatsRunA.lean ====
import proofs.«157376_j6725918785543_2_alg».proof.Proof.IdealStatsRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The statistics kernel's body at the first key tile of a half

Both accumulators are zeroed and then accumulated into; nothing is copied out. -/

set_option maxHeartbeats 1000000 in
/-- What the body's stores leave in each buffer, as pieces (last first), at a point where the zeroing branch is
    taken and the copy-out branch is not, WITH the proof that on whole memrefs — the three inputs' at their
    contents, the two outputs' at contents `xi·` handed back untouched, the two accumulators at anything — the body
    runs to the continuation holding the inputs' and outputs' as they were and each accumulator with its pieces
    written. -/
noncomputable def kernelRun0_A (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) :
    Σ' (L3 : List (View.Piece (Elt F) S1x128x128 .f32)), Σ' (L4 : List (View.Piece (Elt F) S1x128x1 .f32)), Σ' (LS0 : List (View.Piece (Elt F) S128x128 .f32)), { LS1 : List (View.Piece (Elt F) S128x1 .f32) //
      ∀ (xi3 : Vec F S1x128x128 .f32) (xi4 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨[], [], ?_, ?_, fun xi3 xi4 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.IdealStatsRunB.lean ====
import proofs.«157376_j6725918785543_2_alg».proof.Proof.IdealStatsRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The statistics kernel's body at a key tile that is neither the first nor the last of a half

Both accumulators are read at what the point before left and accumulated into; nothing is copied out. -/

set_option maxHeartbeats 1000000 in
/-- What the body's stores leave in each buffer, as pieces (last first), at a point where neither branch is
    taken, WITH the proof that on whole memrefs — the three inputs' at their contents, the two outputs' at contents
    `xi·` handed back untouched, the two accumulators at the contents `xs·` the point before left — the body runs to
    the continuation holding the inputs' and outputs' as they were and each accumulator with its pieces written. -/
noncomputable def kernelRun0_B (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) :
    Σ' (L3 : List (View.Piece (Elt F) S1x128x128 .f32)), Σ' (L4 : List (View.Piece (Elt F) S1x128x1 .f32)), Σ' (LS0 : List (View.Piece (Elt F) S128x128 .f32)), { LS1 : List (View.Piece (Elt F) S128x1 .f32) //
      ∀ (xi3 : Vec F S1x128x128 .f32) (xi4 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨[], [], ?_, ?_, fun xi3 xi4 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.IdealStatsRunC.lean ====
import proofs.«157376_j6725918785543_2_alg».proof.Proof.IdealStatsRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The statistics kernel's body at the last key tile of a half

Both accumulators are read at what the point before left and accumulated into, and then copied out into the two
output blocks. -/

set_option maxHeartbeats 1000000 in
/-- What the body's stores leave in each buffer, as pieces (last first), at a point where the zeroing branch is
    not taken and the copy-out branch is, WITH the proof that on whole memrefs — the three inputs' at their
    contents, the two outputs' at anything, the two accumulators at the contents `xs·` the point before left — the
    body runs to the continuation holding the inputs' as they were and each output and each accumulator with its
    pieces written. -/
noncomputable def kernelRun0_C (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) :
    Σ' (L3 : List (View.Piece (Elt F) S1x128x128 .f32)), Σ' (L4 : List (View.Piece (Elt F) S1x128x1 .f32)), Σ' (LS0 : List (View.Piece (Elt F) S128x128 .f32)), { LS1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.IdealStatsOuts.lean ====
import proofs.«157376_j6725918785543_2_alg».proof.Proof.IdealStatsRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The statistics kernel: what each case leaves, the accumulation over the grid, the proof data -/

/-- At the first key tile of a half nothing is stored into the weighted-sum output (the window is idle there and not written back):
    no pieces — a placeholder (junk read back) that nothing consults. -/
def out0_A_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S1x128x128 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- The same for the row-sum output. -/
def out0_A_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S1x128x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

/-- At the first key tile of a half the pieces stored into the weighted-sum accumulator cover it (whole stores). -/
theorem scover0_A_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) (y : S128x128.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S128x128.size (by sl_kernel_rfl) y

/-- What that point leaves in the weighted-sum accumulator: its pieces read back over junk. -/
def sout0_A_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

/-- The pieces stored into the row-sum accumulator cover it, -/
theorem scover0_A_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) (y : S128x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S128x1.size (by sl_kernel_rfl) y

/-- and this is what they leave there. -/
def sout0_A_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S128x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- At a middle key tile nothing is stored into the weighted-sum output (the window is idle there and not written back):
    no pieces — a placeholder (junk read back) that nothing consults. -/
def out0_B_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S1x128x128 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- The same for the row-sum output. -/
def out0_B_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S1x128x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

/-- At a middle key tile the pieces stored into the weighted-sum accumulator cover it (whole stores). -/
theorem scover0_B_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) (y : S128x128.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S128x128.size (by sl_kernel_rfl) y

/-- What that point leaves in the weighted-sum accumulator: its pieces read back over junk. -/
def sout0_B_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

/-- The pieces stored into the row-sum accumulator cover it, -/
theorem scover0_B_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) (y : S128x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S128x1.size (by sl_kernel_rfl) y

/-- and this is what they leave there. -/
def sout0_B_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S128x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- At the last key tile of a half the pieces stored into the weighted-sum output tile its block (one whole store), so they cover it. -/
theorem cover0_C_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S1x128x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x128x128.size (by sl_kernel_rfl) y

/-- What that point leaves in the weighted-sum output's staging buffer: its pieces read back over junk. -/
def out0_C_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S1x128x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- The pieces stored into the row-sum output cover it, -/
theorem cover0_C_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S1x128x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x128x1.size (by sl_kernel_rfl) y

/-- and this is what they leave there. -/
def out0_C_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S1x128x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- At the last key tile of a half the pieces stored into the weighted-sum accumulator cover it (whole stores). -/
theorem scover0_C_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S128x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S128x128.size (by sl_kernel_rfl) y

/-- What that point leaves in the weighted-sum accumulator: its pieces read back over junk. -/
def sout0_C_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S128x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- The pieces stored into the row-sum accumulator cover it, -/
theorem scover0_C_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S128x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S128x1.size (by sl_kernel_rfl) y

/-- and this is what they leave there. -/
def sout0_C_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S128x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## The three cases at a point of the grid -/

section Region0

variable (V : (c : Dev nD) → (b : Ref sig .tc) → Buf (Elt F) ((c : Thread nD τ).loc b))

/-- What the first key tile of a half, run at point `t`'s memrefs and input blocks, leaves in the two outputs'
    staging buffers and the two accumulators (in that order). -/
def outsA0 (c : Dev nD) (t : Fin cfg0.N) (hc0 : cond0_0 (grid0.coords t)) (hc1 : ¬cond0_1 (grid0.coords t)) : Vec F S1x128x128 .f32 × Vec F S1x128x1 .f32 × Vec F S128x128 .f32 × Vec F S128x1 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t))

/-- The same for a middle key tile, the accumulators entering at `xs0`, `xs1`. -/
def outsB0 (c : Dev nD) (t : Fin cfg0.N) (hc0 : ¬cond0_0 (grid0.coords t)) (hc1 : ¬cond0_1 (grid0.coords t)) (xs0 : Vec F S128x128 .f32) (xs1 : Vec F S128x1 .f32) : Vec F S1x128x128 .f32 × Vec F S1x128x1 .f32 × Vec F S128x128 .f32 × Vec F S128x1 .f32 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1)

/-- The same for the last key tile of a half. -/
def outsC0 (c : Dev nD) (t : Fin cfg0.N) (hc0 : ¬cond0_0 (grid0.coords t)) (hc1 : cond0_1 (grid0.coords t)) (xs0 : Vec F S128x128 .f32) (xs1 : Vec F S128x1 .f32) : Vec F S1x128x128 .f32 × Vec F S1x128x1 .f32 × Vec F S128x128 .f32 × Vec F S128x1 .f32 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1)

/-! ## What the buffers hold after each point -/

/-- The accumulation over the grid: what the two outputs' staging buffers and the two accumulators hold after the body at
    position `n`: the case the closed forms select at `n`, run at the point's memrefs and input blocks, with the
    accumulators entering at what position `n - 1` left in them (at the first tile of a half they enter at
    anything: the body zeroes them). -/
def outsAt0 (c : Dev nD) : (n : ℕ) → n < cfg0.N → Vec F S1x128x128 .f32 × Vec F S1x128x1 .f32 × Vec F S128x128 .f32 × Vec F S128x1 .f32
  | 0, hn => outsA0 V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 64 = 0 then
      if h1 : (n + 1) % 64 = 63 then
        False.elim (by omega)
      else
        outsA0 V c ⟨n + 1, hn⟩ ((hcond0_0 ⟨n + 1, hn⟩).mpr h0) (fun h => h1 ((hcond0_1 ⟨n + 1, hn⟩).mp h))
    else
      if h1 : (n + 1) % 64 = 63 then
        outsC0 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2
      else
        outsB0 V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2

/-- `outsAt0` at the first key tile of a half. -/
theorem outsAt0_A (c : Dev nD) (t : Fin cfg0.N) (h0 : t.val % 64 = 0) (h1 : ¬t.val % 64 = 63) :
    outsAt0 V c t.val t.isLt = outsA0 V c t ((hcond0_0 t).mpr h0) (fun h => h1 ((hcond0_1 t).mp h)) := by
  obtain ⟨n, hn⟩ := t
  cases n with
  | zero => exact rfl
  | succ n => exact (dif_pos h0).trans ((dif_neg h1).trans rfl)

/-- `outsAt0` at a middle key tile: that case over what the point before left in the accumulators. -/
theorem outsAt0_B (c : Dev nD) (t : Fin cfg0.N) (h0 : ¬t.val % 64 = 0) (h1 : ¬t.val % 64 = 63) :
    outsAt0 V c t.val t.isLt = outsB0 V c t (fun h => h0 ((hcond0_0 t).mp h)) (fun h => h1 ((hcond0_1 t).mp h)) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at the last key tile of a half: that case over what the point before left in the accumulators. -/
theorem outsAt0_C (c : Dev nD) (t : Fin cfg0.N) (h0 : ¬t.val % 64 = 0) (h1 : t.val % 64 = 63) :
    outsAt0 V c t.val t.isLt = outsC0 V c t (fun h => h0 ((hcond0_0 t).mp h)) ((hcond0_1 t).mpr h1) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the resting invariant (both accumulators at
    anything); afterwards both accumulators at what the point before left in them, the other region's staging
    buffers at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the two outputs' at `outsAt0`'s first two components; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.KernelIdeal.Hand

end
-- ==== Proof.IdealStats.lean ====
import proofs.«157376_j6725918785543_2_alg».proof.Proof.IdealStatsOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The statistics kernel: the body obligation of its region, at the entry contents `V` -/

section Region0

variable (V : (c : Dev nD) → (b : Ref sig .tc) → Buf (Elt F) ((c : Thread nD τ).loc b))

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the closed forms say which of the three cases
    the point is in, so that case's run applies; the invariant hands the body both accumulators at what the point
    before left (at anything before the first point, which is a first key tile and zeroes them) and takes them back
    at this point's contents; an output the point does not store into is handed back as found; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 128 := lt_of_lt_of_eq t.isLt (show cfg0.N = 128 from N_0)
  by_cases h0 : t.val % 64 = 0
  · by_cases h1 : t.val % 64 = 63
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_A V c t h0 h1]
      unfold outsA0 sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun h => h0 (by rw [h])
    by_cases h1 : t.val % 64 = 63
    · have hc0 : ¬cond0_0 (grid0.coords t) := fun h => h0 ((hcond0_0 t).mp h)
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold outsC0 out0_C_3 out0_C_4 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_B V c t h0 h1]
      unfold outsB0 sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the resting invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting invariant back: the accumulators' named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Region0

end Cert.KernelIdeal.Hand

end
-- ==== Proof.IdealAge.lean ====
/- The frame half of the second TensorCore region (the age update, grid of 64 points): what each window's
   staging buffer holds when the body is called, what the body leaves in the output window's buffer, the
   body's triple, the pipeline's proof data at the region-entry contents `V`, and the body obligation. -/
import proofs.«157376_j6725918785543_2_alg».proof.Proof.Gen.KernelIdeal.Launch
import proofs.«157376_j6725918785543_2_alg».proof.Proof.Gen.KernelIdeal.Skeleton
import proofs.«157376_j6725918785543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option synthInstance.maxSize 4096
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Age
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or
    not (unfetched, its block index has not moved), for any proof data whose array is `V`'s and whose body leaves
    the block in place. The four input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S128x128 := Rect.unit (s := S128x128) ![0, 0] S128x128.size inb_S128x128_S128x128_0_0
abbrev r1_1 : Rect S16384x128 := Rect.unit (s := S16384x128) ![0, 0] S16384x128.size inb_S16384x128_S16384x128_0_0
abbrev r1_2 : Rect S1x16384 := Rect.unit (s := S1x16384) ![0, 0] S1x16384.size inb_S1x16384_S1x16384_0_0
abbrev r1_3 : Rect S128x1 := Rect.unit (s := S128x1) ![0, 0] S128x1.size inb_S128x1_S128x1_0_0

/-! ## What the body leaves in the output window's buffer -/

/-- The output window's staging buffer after the body, from the four input blocks (the normalised state `x0`,
    the key block `x1`, the age block `x2`, the denominators `x3`): its one store of the whole block. -/
def out1_4 (x0 : Vec F S128x128 .f32) (x1 : Vec F S16384x128 .f32) (x2 : Vec F S1x16384 .f32) (x3 : Vec F S128x1 .f32) : Vec F S1x16384 .f32 :=
  View.canon [⟨r1_2, k1_pay1 (View.ld x0 r1_0) (View.ld x1 r1_1) (View.ld x3 r1_3) (View.ld x2 r1_2)⟩]

/-- The one store covers the buffer. -/
theorem cover1_4 (p0 : Vec F S1x16384 .f32) (y : S1x16384.Idx) :
    ∃ pc ∈ ([⟨r1_2, p0⟩] : List (View.Piece (Elt F) S1x16384 .f32)), y ∈ pc.1.set :=
  View.cover_of_tiled [⟨r1_2, p0⟩] S1x16384.size (by rfl) y

/-! ## The body's triple -/

set_option maxHeartbeats 1000000 in
/-- The body on whole staging memrefs, the inputs' at contents `xW` and the output's at anything, runs to the
    continuation holding the inputs' as they were and the output's at `out1_4` of the inputs'. The body reads the
    output's buffer once before it stores (the value read is never used). -/
theorem sound_kernel1 (c : Dev nD) (E : Set ℕ) (i : grid1.Coords)
    (arg1 : Memref sig .tc .vmem S128x128 .f32) (harg1 : arg1.IsWhole) (arg2 : Memref sig .tc .vmem S16384x128 .f32) (harg2 : arg2.IsWhole)
    (arg3 : Memref sig .tc .vmem S1x16384 .f32) (harg3 : arg3.IsWhole) (arg4 : Memref sig .tc .vmem S128x1 .f32) (harg4 : arg4.IsWhole)
    (arg5 : Memref sig .tc .vmem S1x16384 .f32) (harg5 : arg5.IsWhole)
    (x0 : Vec F S128x128 .f32) (x1 : Vec F S16384x128 .f32) (x2 : Vec F S1x16384 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__age_kernel i arg1 harg1 arg2 harg2 arg3 harg3 arg4 harg4 arg5 harg5) K := by
  simp only [cc1__age_kernel_eq_skeleton]; unfold cc1__age_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region's pipeline on core `c`: the arrays as the region finds them; after the body at
    point `t` each input's buffer at its block and the output's at `out1_4` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Age

end Cert.KernelIdeal.Hand

end
-- ==== Proof.IdealRun.lean ====
import proofs.«157376_j6725918785543_2_alg».proof.Proof.Gen.KernelIdeal.Regions
import proofs.«157376_j6725918785543_2_alg».proof.Proof.Gen.KernelIdeal.Points
import proofs.«157376_j6725918785543_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157376_j6725918785543_2_alg».proof.Proof.IdealStats
import proofs.«157376_j6725918785543_2_alg».proof.Proof.IdealAge

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at every boundary between the items of the entry function

The entry function is: the row norms (five host operations), the normalisation (five more), the first kernel
region, thirteen host operations merging the two partial results, the second kernel region, one reshape. -/

/-- After the two leading host stretches: what the first region is entered from. -/
abbrev W2 : Dev nD → Valuation τ sig (Elt F) := fun c => Gen.V2 m c
/-- The same read at the TensorCore's references. -/
abbrev E0 : (c : Dev nD) → (b : Ref sig .tc) → Buf (Elt F) ((c : Thread nD τ).loc b) := fun c b => W2 m c b
/-- At the first region's exit: its arrays at what the write-backs leave, every other buffer as entered. -/
def W3 (c : Dev nD) : Valuation τ sig (Elt F) :=
  Pipeline.withArrays spec0 c (W2 m c) fun w => (dat0 (E0 m) c).arrAt w cfg0.N
theorem W3_arr (c : Dev nD) (w : Fin cfg0.W) :
    W3 m c (Proc.devRef .tc (Pipeline.arrRef spec0 w)) = (dat0 (E0 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev X0 : (c : Dev nD) → (b : Ref sig .tc) → Buf (Elt F) ((c : Thread nD τ).loc b) := fun c b => W3 m c b
theorem hF0 (c : Dev nD) (w : Fin cfg0.W) : (dat0 (E0 m) c).arrAt w cfg0.N = X0 m c (Pipeline.arrRef spec0 w) :=
  (W3_arr m c w).symm
theorem hrest0 (c : Dev nD) : ∀ b, b ∉ Finset.univ.image (Pipeline.arrRef spec0) → X0 m c b = E0 m c b :=
  fun b hb => W3_of_ne m c b fun w e => hb (Finset.mem_image.mpr ⟨w, Finset.mem_univ _, e⟩)

/-- After the merging host stretch: what the second region is entered from. -/
abbrev W4 : Dev nD → Valuation τ sig (Elt F) := fun c => StableHlo.after hostOps1 (W3 m c)
abbrev E1 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (E1 m) c).arrAt w cfg1.N
theorem W5_arr (c : Dev nD) (w : Fin cfg1.W) :
    W5 m c (Proc.devRef .tc (Pipeline.arrRef spec1 w)) = (dat1 (E1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev X1 : (c : Dev nD) → (b : Ref sig .tc) → Buf (Elt F) ((c : Thread nD τ).loc b) := fun c b => W5 m c b
theorem hF1 (c : Dev nD) (w : Fin cfg1.W) : (dat1 (E1 m) c).arrAt w cfg1.N = X1 m c (Pipeline.arrRef spec1 w) :=
  (W5_arr m c w).symm
theorem hrest1 (c : Dev nD) : ∀ b, b ∉ Finset.univ.image (Pipeline.arrRef spec1) → X1 m c b = E1 m c b :=
  fun b hb => W5_of_ne m c b fun w e => hb (Finset.mem_image.mpr ⟨w, Finset.mem_univ _, e⟩)
/-- After the closing reshape: what the final memory holds. -/
abbrev W6 : Dev nD → Valuation τ sig (Elt F) := fun c => StableHlo.after hostOps2 (W5 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The first region over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .region (reg0 m),
    .host (hseg hostOps1 hostOps1_sub hostOps1_fresh (W3 m)),
    .region (reg1 m),
    .host (hseg hostOps2 hostOps2_sub hostOps2_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of the entry function terminates,
    nothing faulting, and the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.IdealFrame.lean ====
/- The frame claim of the kernel program: every weakly fair execution terminates without fault, and the four
   argument arrays end as launched. No host operation writes an argument and no region changes one (a region
   only reads an argument, through an input window, or does not touch it), so the contents at the last boundary,
   read at an argument's buffer, walk back boundary by boundary to the launch memory. -/
import proofs.«157376_j6725918785543_2_alg».proof.Proof.IdealRun

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F] [Named F]

variable (m : (ℓ : Loc nD τ sig) → Buf (Elt F) ℓ) (ρ : Dev nD → PrngReg)

/-! ## The steps back, one per boundary, at a reference the step does not write -/

/-- The closing reshape writes only its result. -/
theorem W6_of (c : Dev nD) (r : Ref sig .tc) (h : r ∉ hostOps2_W) : W6 m c (Proc.devRef .tc r) = W5 m c (Proc.devRef .tc r) :=
  StableHlo.after_of_writes_sub hostOps2 _ hostOps2_writes h
/-- The merging stretch writes only its thirteen results. -/
theorem W4_of (c : Dev nD) (r : Ref sig .tc) (h : r ∉ hostOps1_W) : W4 m c (Proc.devRef .tc r) = W3 m c (Proc.devRef .tc r) :=
  StableHlo.after_of_writes_sub hostOps1 _ hostOps1_writes h
/-- The two leading stretches write only their results. -/
theorem W2_of (c : Dev nD) (r : Ref sig .tc) (h1 : r ∉ hostOps0_1_W) (h0 : r ∉ hostOps0_W) :
    W2 m c (Proc.devRef .tc r) = m ((c : Thread nD τ).loc r) :=
  (Gen.V2_of m c r h1).trans ((Gen.V1_of m c r h0).trans rfl)
/-- An input window's array leaves the first region as it entered. -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (E0 m) c).arrAt_in w hw _).trans (A_eq0 (E0 m) c w))
/-- An input window's array leaves the second region as it entered. -/
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((dat1 (E1 m) c).arrAt_in w hw _).trans (A_eq1 (E1 m) c w))

/-! ## The arguments end as launched -/

/-- The encoded state: read by the leading host stretches only; no window of either region. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of_ne m c main_arg0 (by decide)
    _ = m ((c : Thread nD τ).loc main_arg0) := W2_of m c main_arg0 (by decide) (by decide)

/-- The keys: input window 1 of both regions. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of m c main_arg1 (by decide)
    _ = W4 m c (Proc.devRef .tc main_arg1) := W5_in m c 1 rfl
    _ = W3 m c (Proc.devRef .tc main_arg1) := W4_of m c main_arg1 (by decide)
    _ = W2 m c (Proc.devRef .tc main_arg1) := W3_in m c 1 rfl
    _ = m ((c : Thread nD τ).loc main_arg1) := W2_of m c main_arg1 (by decide) (by decide)

/-- The values: input window 2 of the first region; no window of the second. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_in m c 2 rfl
    _ = m ((c : Thread nD τ).loc main_arg2) := W2_of m c main_arg2 (by decide) (by decide)

/-- The ages: read by the merging stretch's reshape only; no window of either region. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = m ((c : Thread nD τ).loc main_arg3) := W2_of m c main_arg3 (by decide) (by decide)

/-! ## The frame claim's run -/

/-- From any memory with zero counters every weakly fair execution of the entry function terminates, nothing
    faulting, and the four argument arrays hold what they held at launch. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Hand

end
-- ==== Proof.BitsStatsRuns.lean ====
import proofs.«157376_j6725918785543_2_alg».proof.Proof.Gen.Kernel.Launch
import proofs.«157376_j6725918785543_2_alg».proof.Proof.Gen.Kernel.Skeleton
import proofs.«157376_j6725918785543_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel (custom_call 0): what its three control cases share

The kernel accumulates, over the 64 key tiles of each half of the grid, a row sum and a weighted sum in two
scratch buffers; it zeroes both at the first tile of a half and copies both out at the last. Everything below is
stated at a parameter `V`: the TensorCore's buffer contents when the region is entered. -/

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the key window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the value window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions, in closed form over the grid -/

/-- "This is the first key tile of the half": the condition under which the body zeroes both accumulators, as
    the body computes it from the second grid coordinate. -/
abbrev cond0_0 (i : grid0.Coords) : Prop := (Scalar.cmpi .ne (Scalar.extui (Scalar.cmpi .eq (BitVec.ofNat 32 (i 1).val) 0#32)) 0#32) = 1#1
/-- It holds exactly at the points whose position is a multiple of 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last key tile of the half": the condition under which the body copies both accumulators out. -/
abbrev cond0_1 (i : grid0.Coords) : Prop := k0_cond2 i = 1#1
/-- It holds exactly at the points whose position is 63 modulo 64. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

/-- The three inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last tile of a half the weighted-sum output is idle: nothing is stored into it, -/
theorem idleAt0_3 : ∀ t : Fin cfg0.N, ¬cond0_1 (grid0.coords t) → cfg0.idle 3 (grid0.coords t) = true := by decide +kernel
/-- and its block is not written back. -/
theorem noFlush0_3 : ∀ t : Fin cfg0.N, ¬cond0_1 (grid0.coords t) → (cfg0.win 3).flush t = false := by decide +kernel
/-- At the last tile of a half it is live. -/
theorem liveAt0_3 : ∀ t : Fin cfg0.N, cond0_1 (grid0.coords t) → cfg0.idle 3 (grid0.coords t) = false := by decide +kernel
/-- The same three facts for the row-sum output. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated (the choice does not matter:
    the contents are read back through the same view they are written through). -/
abbrev VO0_3 : View sig .tc .vmem S1x128x128 .f32 := (Memref.whole cc0_stg3_0 : Memref sig .tc .vmem S1x128x128 .f32).view
abbrev VO0_4 : View sig .tc .vmem S1x128x1 .f32 := (Memref.whole cc0_stg4_0 : Memref sig .tc .vmem S1x128x1 .f32).view
/-- Each window's current staging memref at point `t`, spelled as the pipeline passes it, and its wholeness. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S128x128 .f32 := Memref.whole cc0_scratch0
abbrev scM0_1 : Memref sig .tc .vmem S128x1 .f32 := Memref.whole cc0_scratch1
/-- The accumulators as views: what they hold is stated through these. -/
abbrev VS0_0 : View sig .tc .vmem S128x128 .f32 := scM0_0.view
abbrev VS0_1 : View sig .tc .vmem S128x1 .f32 := scM0_1.view

/-- The core's scoped buffers that region 0 neither stages through nor accumulates in (the other region's staging
    buffers), each whole at some contents: they ride along untouched. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's resting invariant with the two accumulators as memrefs owned at some contents: what the body is
    handed at a point and hands back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

end Cert.Kernel.Hand

end
-- ==== Proof.BitsStatsRunA.lean ====
import proofs.«157376_j6725918785543_2_alg».proof.Proof.BitsStatsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel's body at the first key tile of a half

Both accumulators are zeroed and then accumulated into; nothing is copied out. -/

set_option maxHeartbeats 1000000 in
/-- What the body's stores leave in each buffer, as pieces (last first), at a point where the zeroing branch is
    taken and the copy-out branch is not, WITH the proof that on whole memrefs — the three inputs' at their
    contents, the two outputs' at contents `xi·` handed back untouched, the two accumulators at anything — the body
    runs to the continuation holding the inputs' and outputs' as they were and each accumulator with its pieces
    written. -/
noncomputable def kernelRun0_A (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) :
    Σ' (L3 : List (View.Piece (Elt F) S1x128x128 .f32)), Σ' (L4 : List (View.Piece (Elt F) S1x128x1 .f32)), Σ' (LS0 : List (View.Piece (Elt F) S128x128 .f32)), { LS1 : List (View.Piece (Elt F) S128x1 .f32) //
      ∀ (xi3 : Vec F S1x128x128 .f32) (xi4 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨[], [], ?_, ?_, fun xi3 xi4 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.BitsStatsRunB.lean ====
import proofs.«157376_j6725918785543_2_alg».proof.Proof.BitsStatsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel's body at a key tile that is neither the first nor the last of a half

Both accumulators are read at what the point before left and accumulated into; nothing is copied out. -/

set_option maxHeartbeats 1000000 in
/-- What the body's stores leave in each buffer, as pieces (last first), at a point where neither branch is
    taken, WITH the proof that on whole memrefs — the three inputs' at their contents, the two outputs' at contents
    `xi·` handed back untouched, the two accumulators at the contents `xs·` the point before left — the body runs to
    the continuation holding the inputs' and outputs' as they were and each accumulator with its pieces written. -/
noncomputable def kernelRun0_B (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) :
    Σ' (L3 : List (View.Piece (Elt F) S1x128x128 .f32)), Σ' (L4 : List (View.Piece (Elt F) S1x128x1 .f32)), Σ' (LS0 : List (View.Piece (Elt F) S128x128 .f32)), { LS1 : List (View.Piece (Elt F) S128x1 .f32) //
      ∀ (xi3 : Vec F S1x128x128 .f32) (xi4 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨[], [], ?_, ?_, fun xi3 xi4 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.BitsStatsRunC.lean ====
import proofs.«157376_j6725918785543_2_alg».proof.Proof.BitsStatsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel's body at the last key tile of a half

Both accumulators are read at what the point before left and accumulated into, and then copied out into the two
output blocks. -/

set_option maxHeartbeats 1000000 in
/-- What the body's stores leave in each buffer, as pieces (last first), at a point where the zeroing branch is
    not taken and the copy-out branch is, WITH the proof that on whole memrefs — the three inputs' at their
    contents, the two outputs' at anything, the two accumulators at the contents `xs·` the point before left — the
    body runs to the continuation holding the inputs' as they were and each output and each accumulator with its
    pieces written. -/
noncomputable def kernelRun0_C (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) :
    Σ' (L3 : List (View.Piece (Elt F) S1x128x128 .f32)), Σ' (L4 : List (View.Piece (Elt F) S1x128x1 .f32)), Σ' (LS0 : List (View.Piece (Elt F) S128x128 .f32)), { LS1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.BitsStatsOuts.lean ====
import proofs.«157376_j6725918785543_2_alg».proof.Proof.BitsStatsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel: what each case leaves, the accumulation over the grid, the proof data -/

/-- At the first key tile of a half nothing is stored into the weighted-sum output (the window is idle there and not written back):
    no pieces — a placeholder (junk read back) that nothing consults. -/
def out0_A_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S1x128x128 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- The same for the row-sum output. -/
def out0_A_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S1x128x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

/-- At the first key tile of a half the pieces stored into the weighted-sum accumulator cover it (whole stores). -/
theorem scover0_A_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) (y : S128x128.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S128x128.size (by sl_kernel_rfl) y

/-- What that point leaves in the weighted-sum accumulator: its pieces read back over junk. -/
def sout0_A_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

/-- The pieces stored into the row-sum accumulator cover it, -/
theorem scover0_A_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) (y : S128x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S128x1.size (by sl_kernel_rfl) y

/-- and this is what they leave there. -/
def sout0_A_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : cond0_0 i) (hc1 : ¬cond0_1 i)
    (x0 : Vec F S128x128 .f32) (x1 : Vec F S8192x128 .f32) (x2 : Vec F S8192x128 .f32) : Vec F S128x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- At a middle key tile nothing is stored into the weighted-sum output (the window is idle there and not written back):
    no pieces — a placeholder (junk read back) that nothing consults. -/
def out0_B_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S1x128x128 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- The same for the row-sum output. -/
def out0_B_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S1x128x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

/-- At a middle key tile the pieces stored into the weighted-sum accumulator cover it (whole stores). -/
theorem scover0_B_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) (y : S128x128.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S128x128.size (by sl_kernel_rfl) y

/-- What that point leaves in the weighted-sum accumulator: its pieces read back over junk. -/
def sout0_B_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

/-- The pieces stored into the row-sum accumulator cover it, -/
theorem scover0_B_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) (y : S128x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S128x1.size (by sl_kernel_rfl) y

/-- and this is what they leave there. -/
def sout0_B_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : ¬cond0_1 i)
    (x0 : Vec F S128x128 .f32) (x1 : Vec F S8192x128 .f32) (x2 : Vec F S8192x128 .f32) (xs0 : Vec F S128x128 .f32) (xs1 : Vec F S128x1 .f32) : Vec F S128x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- At the last key tile of a half the pieces stored into the weighted-sum output tile its block (one whole store), so they cover it. -/
theorem cover0_C_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S1x128x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x128x128.size (by sl_kernel_rfl) y

/-- What that point leaves in the weighted-sum output's staging buffer: its pieces read back over junk. -/
def out0_C_3 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S1x128x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- The pieces stored into the row-sum output cover it, -/
theorem cover0_C_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S1x128x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x128x1.size (by sl_kernel_rfl) y

/-- and this is what they leave there. -/
def out0_C_4 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S1x128x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- At the last key tile of a half the pieces stored into the weighted-sum accumulator cover it (whole stores). -/
theorem scover0_C_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S128x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S128x128.size (by sl_kernel_rfl) y

/-- What that point leaves in the weighted-sum accumulator: its pieces read back over junk. -/
def sout0_C_0 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S128x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- The pieces stored into the row-sum accumulator cover it, -/
theorem scover0_C_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) (y : S128x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S128x1.size (by sl_kernel_rfl) y

/-- and this is what they leave there. -/
def sout0_C_1 (c : Dev nD) (i : grid0.Coords) (arg2 : Memref sig .tc .vmem S128x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S128x128 .f32) (harg7 : arg7.IsWhole) (arg8 : Memref sig .tc .vmem S128x1 .f32) (harg8 : arg8.IsWhole) (hc0 : ¬cond0_0 i) (hc1 : cond0_1 i)
    (x0 : Vec F S128x128 .f32) (x1 : Vec F S8192x128 .f32) (x2 : Vec F S8192x128 .f32) (xs0 : Vec F S128x128 .f32) (xs1 : Vec F S128x1 .f32) : Vec F S128x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## The three cases at a point of the grid -/

section Region0

variable (V : (c : Dev nD) → (b : Ref sig .tc) → Buf (Elt F) ((c : Thread nD τ).loc b))

/-- What the first key tile of a half, run at point `t`'s memrefs and input blocks, leaves in the two outputs'
    staging buffers and the two accumulators (in that order). -/
def outsA0 (c : Dev nD) (t : Fin cfg0.N) (hc0 : cond0_0 (grid0.coords t)) (hc1 : ¬cond0_1 (grid0.coords t)) : Vec F S1x128x128 .f32 × Vec F S1x128x1 .f32 × Vec F S128x128 .f32 × Vec F S128x1 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t))

/-- The same for a middle key tile, the accumulators entering at `xs0`, `xs1`. -/
def outsB0 (c : Dev nD) (t : Fin cfg0.N) (hc0 : ¬cond0_0 (grid0.coords t)) (hc1 : ¬cond0_1 (grid0.coords t)) (xs0 : Vec F S128x128 .f32) (xs1 : Vec F S128x1 .f32) : Vec F S1x128x128 .f32 × Vec F S1x128x1 .f32 × Vec F S128x128 .f32 × Vec F S128x1 .f32 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1)

/-- The same for the last key tile of a half. -/
def outsC0 (c : Dev nD) (t : Fin cfg0.N) (hc0 : ¬cond0_0 (grid0.coords t)) (hc1 : cond0_1 (grid0.coords t)) (xs0 : Vec F S128x128 .f32) (xs1 : Vec F S128x1 .f32) : Vec F S1x128x128 .f32 × Vec F S1x128x1 .f32 × Vec F S128x128 .f32 × Vec F S128x1 .f32 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk0 V c 0 t) (iblk0 V c 1 t) (iblk0 V c 2 t) xs0 xs1)

/-! ## What the buffers hold after each point -/

/-- The accumulation over the grid: what the two outputs' staging buffers and the two accumulators hold after the body at
    position `n`: the case the closed forms select at `n`, run at the point's memrefs and input blocks, with the
    accumulators entering at what position `n - 1` left in them (at the first tile of a half they enter at
    anything: the body zeroes them). -/
def outsAt0 (c : Dev nD) : (n : ℕ) → n < cfg0.N → Vec F S1x128x128 .f32 × Vec F S1x128x1 .f32 × Vec F S128x128 .f32 × Vec F S128x1 .f32
  | 0, hn => outsA0 V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 64 = 0 then
      if h1 : (n + 1) % 64 = 63 then
        False.elim (by omega)
      else
        outsA0 V c ⟨n + 1, hn⟩ ((hcond0_0 ⟨n + 1, hn⟩).mpr h0) (fun h => h1 ((hcond0_1 ⟨n + 1, hn⟩).mp h))
    else
      if h1 : (n + 1) % 64 = 63 then
        outsC0 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2
      else
        outsB0 V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2

/-- `outsAt0` at the first key tile of a half. -/
theorem outsAt0_A (c : Dev nD) (t : Fin cfg0.N) (h0 : t.val % 64 = 0) (h1 : ¬t.val % 64 = 63) :
    outsAt0 V c t.val t.isLt = outsA0 V c t ((hcond0_0 t).mpr h0) (fun h => h1 ((hcond0_1 t).mp h)) := by
  obtain ⟨n, hn⟩ := t
  cases n with
  | zero => exact rfl
  | succ n => exact (dif_pos h0).trans ((dif_neg h1).trans rfl)

/-- `outsAt0` at a middle key tile: that case over what the point before left in the accumulators. -/
theorem outsAt0_B (c : Dev nD) (t : Fin cfg0.N) (h0 : ¬t.val % 64 = 0) (h1 : ¬t.val % 64 = 63) :
    outsAt0 V c t.val t.isLt = outsB0 V c t (fun h => h0 ((hcond0_0 t).mp h)) (fun h => h1 ((hcond0_1 t).mp h)) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at the last key tile of a half: that case over what the point before left in the accumulators. -/
theorem outsAt0_C (c : Dev nD) (t : Fin cfg0.N) (h0 : ¬t.val % 64 = 0) (h1 : t.val % 64 = 63) :
    outsAt0 V c t.val t.isLt = outsC0 V c t (fun h => h0 ((hcond0_0 t).mp h)) ((hcond0_1 t).mpr h1) (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the resting invariant (both accumulators at
    anything); afterwards both accumulators at what the point before left in them, the other region's staging
    buffers at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restS0 (F := F) c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the two outputs' at `outsAt0`'s first two components; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

end Cert.Kernel.Hand

end
-- ==== Proof.BitsStats.lean ====
import proofs.«157376_j6725918785543_2_alg».proof.Proof.BitsStatsOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel: the body obligation of its region, at the entry contents `V` -/

section Region0

variable (V : (c : Dev nD) → (b : Ref sig .tc) → Buf (Elt F) ((c : Thread nD τ).loc b))

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the closed forms say which of the three cases
    the point is in, so that case's run applies; the invariant hands the body both accumulators at what the point
    before left (at anything before the first point, which is a first key tile and zeroes them) and takes them back
    at this point's contents; an output the point does not store into is handed back as found; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 128 := lt_of_lt_of_eq t.isLt (show cfg0.N = 128 from N_0)
  by_cases h0 : t.val % 64 = 0
  · by_cases h1 : t.val % 64 = 63
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_A V c t h0 h1]
      unfold outsA0 sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun h => h0 (by rw [h])
    by_cases h1 : t.val % 64 = 63
    · have hc0 : ¬cond0_0 (grid0.coords t) := fun h => h0 ((hcond0_0 t).mp h)
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [outsAt0_C V c t h0 h1]
      unfold outsC0 out0_C_3 out0_C_4 sout0_C_0 sout0_C_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_B V c t h0 h1]
      unfold outsB0 sout0_B_0 sout0_B_1; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the resting invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting invariant back: the accumulators' named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Region0

end Cert.Kernel.Hand

end
-- ==== Proof.BitsAge.lean ====
/- The frame half of the second TensorCore region (the age update, grid of 64 points): what each window's
   staging buffer holds when the body is called, what the body leaves in the output window's buffer, the
   body's triple, the pipeline's proof data at the region-entry contents `V`, and the body obligation. -/
import proofs.«157376_j6725918785543_2_alg».proof.Proof.Gen.Kernel.Launch
import proofs.«157376_j6725918785543_2_alg».proof.Proof.Gen.Kernel.Skeleton
import proofs.«157376_j6725918785543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option synthInstance.maxSize 4096
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Age
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or
    not (unfetched, its block index has not moved), for any proof data whose array is `V`'s and whose body leaves
    the block in place. The four input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S128x128 := Rect.unit (s := S128x128) ![0, 0] S128x128.size inb_S128x128_S128x128_0_0
abbrev r1_1 : Rect S16384x128 := Rect.unit (s := S16384x128) ![0, 0] S16384x128.size inb_S16384x128_S16384x128_0_0
abbrev r1_2 : Rect S1x16384 := Rect.unit (s := S1x16384) ![0, 0] S1x16384.size inb_S1x16384_S1x16384_0_0
abbrev r1_3 : Rect S128x1 := Rect.unit (s := S128x1) ![0, 0] S128x1.size inb_S128x1_S128x1_0_0

/-! ## What the body leaves in the output window's buffer -/

/-- The output window's staging buffer after the body, from the four input blocks (the normalised state `x0`,
    the key block `x1`, the age block `x2`, the denominators `x3`): its one store of the whole block. -/
def out1_4 (x0 : Vec F S128x128 .f32) (x1 : Vec F S16384x128 .f32) (x2 : Vec F S1x16384 .f32) (x3 : Vec F S128x1 .f32) : Vec F S1x16384 .f32 :=
  View.canon [⟨r1_2, k1_pay1 (View.ld x0 r1_0) (View.ld x1 r1_1) (View.ld x3 r1_3) (View.ld x2 r1_2)⟩]

/-- The one store covers the buffer. -/
theorem cover1_4 (p0 : Vec F S1x16384 .f32) (y : S1x16384.Idx) :
    ∃ pc ∈ ([⟨r1_2, p0⟩] : List (View.Piece (Elt F) S1x16384 .f32)), y ∈ pc.1.set :=
  View.cover_of_tiled [⟨r1_2, p0⟩] S1x16384.size (by rfl) y

/-! ## The body's triple -/

set_option maxHeartbeats 1000000 in
/-- The body on whole staging memrefs, the inputs' at contents `xW` and the output's at anything, runs to the
    continuation holding the inputs' as they were and the output's at `out1_4` of the inputs'. The body reads the
    output's buffer once before it stores (the value read is never used). -/
theorem sound_kernel1 (c : Dev nD) (E : Set ℕ) (i : grid1.Coords)
    (arg1 : Memref sig .tc .vmem S128x128 .f32) (harg1 : arg1.IsWhole) (arg2 : Memref sig .tc .vmem S16384x128 .f32) (harg2 : arg2.IsWhole)
    (arg3 : Memref sig .tc .vmem S1x16384 .f32) (harg3 : arg3.IsWhole) (arg4 : Memref sig .tc .vmem S128x1 .f32) (harg4 : arg4.IsWhole)
    (arg5 : Memref sig .tc .vmem S1x16384 .f32) (harg5 : arg5.IsWhole)
    (x0 : Vec F S128x128 .f32) (x1 : Vec F S16384x128 .f32) (x2 : Vec F S1x16384 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__age_kernel i arg1 harg1 arg2 harg2 arg3 harg3 arg4 harg4 arg5 harg5) K := by
  simp only [cc1__age_kernel_eq_skeleton]; unfold cc1__age_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region's pipeline on core `c`: the arrays as the region finds them; after the body at
    point `t` each input's buffer at its block and the output's at `out1_4` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Age

end Cert.Kernel.Hand

end
-- ==== Proof.BitsRun.lean ====
import proofs.«157376_j6725918785543_2_alg».proof.Proof.Gen.Kernel.Regions
import proofs.«157376_j6725918785543_2_alg».proof.Proof.Gen.Kernel.Points
import proofs.«157376_j6725918785543_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«157376_j6725918785543_2_alg».proof.Proof.BitsStats
import proofs.«157376_j6725918785543_2_alg».proof.Proof.BitsAge

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at every boundary between the items of the entry function

The entry function is: the row norms (five host operations), the normalisation (five more), the first kernel
region, thirteen host operations merging the two partial results, the second kernel region, one reshape. -/

/-- After the two leading host stretches: what the first region is entered from. -/
abbrev W2 : Dev nD → Valuation τ sig (Elt F) := fun c => Gen.V2 m c
/-- The same read at the TensorCore's references. -/
abbrev E0 : (c : Dev nD) → (b : Ref sig .tc) → Buf (Elt F) ((c : Thread nD τ).loc b) := fun c b => W2 m c b
/-- At the first region's exit: its arrays at what the write-backs leave, every other buffer as entered. -/
def W3 (c : Dev nD) : Valuation τ sig (Elt F) :=
  Pipeline.withArrays spec0 c (W2 m c) fun w => (dat0 (E0 m) c).arrAt w cfg0.N
theorem W3_arr (c : Dev nD) (w : Fin cfg0.W) :
    W3 m c (Proc.devRef .tc (Pipeline.arrRef spec0 w)) = (dat0 (E0 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev X0 : (c : Dev nD) → (b : Ref sig .tc) → Buf (Elt F) ((c : Thread nD τ).loc b) := fun c b => W3 m c b
theorem hF0 (c : Dev nD) (w : Fin cfg0.W) : (dat0 (E0 m) c).arrAt w cfg0.N = X0 m c (Pipeline.arrRef spec0 w) :=
  (W3_arr m c w).symm
theorem hrest0 (c : Dev nD) : ∀ b, b ∉ Finset.univ.image (Pipeline.arrRef spec0) → X0 m c b = E0 m c b :=
  fun b hb => W3_of_ne m c b fun w e => hb (Finset.mem_image.mpr ⟨w, Finset.mem_univ _, e⟩)

/-- After the merging host stretch: what the second region is entered from. -/
abbrev W4 : Dev nD → Valuation τ sig (Elt F) := fun c => StableHlo.after hostOps1 (W3 m c)
abbrev E1 : (c : Dev nD) → (b : Ref sig .tc) → Buf (Elt F) ((c : Thread nD τ).loc b) := fun c b => W4 m c b
/-- At the second region's exit. -/
def W5 (c : Dev nD) : Valuation τ sig (Elt F) :=
  Pipeline.withArrays spec1 c (W4 m c) fun w => (dat1 (E1 m) c).arrAt w cfg1.N
theorem W5_arr (c : Dev nD) (w : Fin cfg1.W) :
    W5 m c (Proc.devRef .tc (Pipeline.arrRef spec1 w)) = (dat1 (E1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev X1 : (c : Dev nD) → (b : Ref sig .tc) → Buf (Elt F) ((c : Thread nD τ).loc b) := fun c b => W5 m c b
theorem hF1 (c : Dev nD) (w : Fin cfg1.W) : (dat1 (E1 m) c).arrAt w cfg1.N = X1 m c (Pipeline.arrRef spec1 w) :=
  (W5_arr m c w).symm
theorem hrest1 (c : Dev nD) : ∀ b, b ∉ Finset.univ.image (Pipeline.arrRef spec1) → X1 m c b = E1 m c b :=
  fun b hb => W5_of_ne m c b fun w e => hb (Finset.mem_image.mpr ⟨w, Finset.mem_univ _, e⟩)
/-- After the closing reshape: what the final memory holds. -/
abbrev W6 : Dev nD → Valuation τ sig (Elt F) := fun c => StableHlo.after hostOps2 (W5 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The first region over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .region (reg0 m),
    .host (hseg hostOps1 hostOps1_sub hostOps1_fresh (W3 m)),
    .region (reg1 m),
    .host (hseg hostOps2 hostOps2_sub hostOps2_fresh (W5 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of the entry function terminates,
    nothing faulting, and the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.BitsFrame.lean ====
/- The frame claim of the kernel program: every weakly fair execution terminates without fault, and the four
   argument arrays end as launched. No host operation writes an argument and no region changes one (a region
   only reads an argument, through an input window, or does not touch it), so the contents at the last boundary,
   read at an argument's buffer, walk back boundary by boundary to the launch memory. -/
import proofs.«157376_j6725918785543_2_alg».proof.Proof.BitsRun

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

/-! ## The steps back, one per boundary, at a reference the step does not write -/

/-- The closing reshape writes only its result. -/
theorem W6_of (c : Dev nD) (r : Ref sig .tc) (h : r ∉ hostOps2_W) : W6 m c (Proc.devRef .tc r) = W5 m c (Proc.devRef .tc r) :=
  StableHlo.after_of_writes_sub hostOps2 _ hostOps2_writes h
/-- The merging stretch writes only its thirteen results. -/
theorem W4_of (c : Dev nD) (r : Ref sig .tc) (h : r ∉ hostOps1_W) : W4 m c (Proc.devRef .tc r) = W3 m c (Proc.devRef .tc r) :=
  StableHlo.after_of_writes_sub hostOps1 _ hostOps1_writes h
/-- The two leading stretches write only their results. -/
theorem W2_of (c : Dev nD) (r : Ref sig .tc) (h1 : r ∉ hostOps0_1_W) (h0 : r ∉ hostOps0_W) :
    W2 m c (Proc.devRef .tc r) = m ((c : Thread nD τ).loc r) :=
  (Gen.V2_of m c r h1).trans ((Gen.V1_of m c r h0).trans rfl)
/-- An input window's array leaves the first region as it entered. -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (E0 m) c).arrAt_in w hw _).trans (A_eq0 (E0 m) c w))
/-- An input window's array leaves the second region as it entered. -/
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((dat1 (E1 m) c).arrAt_in w hw _).trans (A_eq1 (E1 m) c w))

/-! ## The arguments end as launched -/

/-- The encoded state: read by the leading host stretches only; no window of either region. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of_ne m c main_arg0 (by decide)
    _ = m ((c : Thread nD τ).loc main_arg0) := W2_of m c main_arg0 (by decide) (by decide)

/-- The keys: input window 1 of both regions. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of m c main_arg1 (by decide)
    _ = W4 m c (Proc.devRef .tc main_arg1) := W5_in m c 1 rfl
    _ = W3 m c (Proc.devRef .tc main_arg1) := W4_of m c main_arg1 (by decide)
    _ = W2 m c (Proc.devRef .tc main_arg1) := W3_in m c 1 rfl
    _ = m ((c : Thread nD τ).loc main_arg1) := W2_of m c main_arg1 (by decide) (by decide)

/-- The values: input window 2 of the first region; no window of the second. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_in m c 2 rfl
    _ = m ((c : Thread nD τ).loc main_arg2) := W2_of m c main_arg2 (by decide) (by decide)

/-- The ages: read by the merging stretch's reshape only; no window of either region. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = m ((c : Thread nD τ).loc main_arg3) := W2_of m c main_arg3 (by decide) (by decide)

/-! ## The frame claim's run -/

/-- From any memory with zero counters every weakly fair execution of the entry function terminates, nothing
    faulting, and the four argument arrays hold what they held at launch. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Hand

end
-- ==== Proof.Small.lean ====
/- The claim's small parts: the frame claims of the kernel program at the bit-exact and at the ideal values
   (each from the run of the whole program over its two regions), and the ledger of the idealization: its four entries are one
   named constant, the reciprocal of the temperature, which the table gives the exact rational. -/
import proofs.«157376_j6725918785543_2_alg».proof.Defs
import proofs.«157376_j6725918785543_2_alg».proof.Proof.IdealFrame
import proofs.«157376_j6725918785543_2_alg».proof.Proof.BitsFrame

noncomputable section

namespace Cert.Proof.Small

open Idealize.ShloMosaic Idealize.SL.Sem

variable [hPre_finite_inputs : Cert.Pre_finite_inputs.Facts]

/-- The kernel program at the bit-exact values runs to the end without fault and leaves its arguments as launched. -/
theorem frame_p : Cert.frame_Kernel (hKernel := Cert.Kernel.Gen.facts) :=
  fun m ρ _ => Cert.Kernel.Hand.frame_run (F := Bits) m ρ

/-- The same program at the ideal values likewise. -/
theorem frame_pi : Cert.frame_KernelIdeal (hKernelIdeal := Cert.KernelIdeal.Gen.facts) :=
  fun m ρ _ => Cert.KernelIdeal.Hand.frame_run (F := Ideal) m ρ

/-- One ledger entry: the table names the constant `268435456 / 13366475`, and the program's constant is that value
    at the ideal instance. -/
theorem inv_temp_entry :
    IdealRules.named_const.Statement Cert.KernelIdeal.κ "inv_temp" .f32 0x41A0A974#32 ((268435456 / 13366475 : ℝ) : EReal) :=
  IdealRules.named_const.statement Cert.KernelIdeal.κ "inv_temp" .f32 0x41A0A974#32 ((268435456 / 13366475 : ℝ) : EReal) rfl

/-- The ledger: the constant occurs four times (twice in each kernel). -/
theorem preserves : Cert.preserves_Kernel_KernelIdeal :=
  ⟨inv_temp_entry, inv_temp_entry, inv_temp_entry, inv_temp_entry⟩

end Cert.Proof.Small

end
-- ==== Proof.RefFrame.lean ====
/-
  The reference program runs to the end, faults nowhere and leaves its four arguments unchanged:
  the run of its host operations, read back, ends with each argument at its launch contents.
-/
import proofs.«157376_j6725918785543_2_alg».proof.Defs
import proofs.«157376_j6725918785543_2_alg».proof.Proof.Gen.ReferenceIdeal.Run

noncomputable section

namespace Cert.ReferenceIdeal.RefValue

open Idealize.ShloMosaic Idealize.SL.Sem

/-- The reference's frame: every weakly fair execution terminates, nothing faults, the arguments end unchanged. -/
theorem frame_ri [hPre_finite_inputs : Cert.Pre_finite_inputs.Facts] :
    Cert.frame_ReferenceIdeal (hReferenceIdeal := Cert.ReferenceIdeal.Gen.facts) :=
  fun m ρ _ => (θ_run Cert.ReferenceIdeal.defs _ _).mono (fun _ h c => (h c).2.2)
    (Cert.ReferenceIdeal.Value.run (F := Ideal) m ρ)

end Cert.ReferenceIdeal.RefValue

end
-- ==== Proof.Spec.lean ====
/-
  The mathematical specification of the memory-attention computation, over extended reals.

  For a normalised state `ns` (128 rows of 128 entries), a table of `N = 1048576` keys and values
  (rows of 128 entries) and an age vector of length `N`, with `c = 268435456 / 13366475` the inverse
  temperature:

    score b n = ∑ k, ns[b,k] * keys[n,k]
    w b n     = exp (score b n * c - c)          -- an unnormalised softmax weight (shift by the constant c)
    L b       = ∑ n, w b n
    wsSpec[b,d]      = (∑ n, w b n * values[n,d]) / L b
    ageSpecTotal[n]  = age[n] + ∑ b, w b n / L b

  When every entry of `ns` and `keys` is a real, each `w b n` is a positive real and so is each `L b`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The shape of the state and of the weighted sum: 128 × 128. -/
abbrev S128x128 : Shape := ⟨2, ![128, 128]⟩
/-- The shape of the key and value tables: 1048576 × 128. -/
abbrev SNx128 : Shape := ⟨2, ![1048576, 128]⟩
/-- The shape of the age vector: 1048576. -/
abbrev SN : Shape := ⟨1, ![1048576]⟩

/-- Every entry of the array is a real number (neither infinity). -/
def IsReal {ι : Type} (a : ι → EReal) : Prop := ∀ i, ∃ r : ℝ, a i = (r : EReal)

/-- The inverse temperature, `268435456 / 13366475`. -/
def cc : EReal := ((268435456 / 13366475 : ℝ) : EReal)

/-- The similarity of state row `b` and key row `n`: their inner product. -/
def score (ns : S128x128.Idx → EReal) (keys : SNx128.Idx → EReal) (b : Fin 128) (n : Fin 1048576) : EReal :=
  ∑ k : Fin 128, ns (ix2 b k) * keys (ix2 n k)

/-- The unnormalised attention weight `exp (score * c - c)`. -/
def w (ns : S128x128.Idx → EReal) (keys : SNx128.Idx → EReal) (b : Fin 128) (n : Fin 1048576) : EReal :=
  Ideal.exp (score ns keys b n * cc - cc)

/-- The normaliser of row `b`: the sum of its weights over all keys. -/
def L (ns : S128x128.Idx → EReal) (keys : SNx128.Idx → EReal) (b : Fin 128) : EReal :=
  ∑ n : Fin 1048576, w ns keys b n

/-- The attention-weighted sum of the values. -/
def wsSpec (ns : S128x128.Idx → EReal) (keys values : SNx128.Idx → EReal) : S128x128.Idx → EReal :=
  fun j => Ideal.div (∑ n : Fin 1048576, w ns keys (j 0) n * values (ix2 n (j 1))) (L ns keys (j 0))

/-- The age vector plus, for each key, the total normalised weight it received. -/
def ageSpecTotal (ns : S128x128.Idx → EReal) (keys : SNx128.Idx → EReal) (age : SN.Idx → EReal) : SN.Idx → EReal :=
  fun j => age j + ∑ b : Fin 128, Ideal.div (w ns keys b (j 0)) (L ns keys b)

theorem wsSpec_apply (ns : S128x128.Idx → EReal) (keys values : SNx128.Idx → EReal) (b d : Fin 128) :
    wsSpec ns keys values (ix2 b d)
      = Ideal.div (∑ n : Fin 1048576, w ns keys b n * values (ix2 n d)) (L ns keys b) := rfl

theorem ageSpecTotal_apply (ns : S128x128.Idx → EReal) (keys : SNx128.Idx → EReal) (age : SN.Idx → EReal)
    (n : Fin 1048576) :
    ageSpecTotal ns keys age (ix1 n) = age (ix1 n) + ∑ b : Fin 128, Ideal.div (w ns keys b n) (L ns keys b) := rfl

/-! ### Sums of reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Finiteness facts -/

/-- With real state and keys, every score is a real. -/
theorem score_real {ns : S128x128.Idx → EReal} {keys : SNx128.Idx → EReal} (hns : IsReal ns) (hk : IsReal keys)
    (b : Fin 128) (n : Fin 1048576) : ∃ r : ℝ, score ns keys b n = (r : EReal) := by
  choose f hf using hns
  choose g hg using hk
  refine ⟨∑ k : Fin 128, f (ix2 b k) * g (ix2 n k), ?_⟩
  rw [coe_sum]
  unfold score
  refine Finset.sum_congr rfl fun k _ => ?_
  rw [hf, hg, EReal.coe_mul]

/-- With real state and keys, every weight is a positive real. -/
theorem w_pos_real {ns : S128x128.Idx → EReal} {keys : SNx128.Idx → EReal} (hns : IsReal ns) (hk : IsReal keys)
    (b : Fin 128) (n : Fin 1048576) : ∃ r : ℝ, 0 < r ∧ w ns keys b n = (r : EReal) := by
  obtain ⟨s, hs⟩ := score_real hns hk b n
  refine ⟨Real.exp (s * (268435456 / 13366475) - 268435456 / 13366475), Real.exp_pos _, ?_⟩
  unfold w cc
  rw [hs, ← EReal.coe_mul, ← EReal.coe_sub, Ideal.exp_coe]

/-- With real state and keys, every normaliser is a positive real. -/
theorem L_pos_real {ns : S128x128.Idx → EReal} {keys : SNx128.Idx → EReal} (hns : IsReal ns) (hk : IsReal keys)
    (b : Fin 128) : ∃ r : ℝ, 0 < r ∧ L ns keys b = (r : EReal) := by
  choose r hr0 hr using fun n => w_pos_real hns hk b n
  refine ⟨∑ n : Fin 1048576, r n, ?_, ?_⟩
  · exact Finset.sum_pos (fun n _ => hr0 n) ⟨⟨0, by norm_num⟩, Finset.mem_univ _⟩
  · rw [coe_sum]
    unfold L
    exact Finset.sum_congr rfl fun n _ => hr n

end Cert.Spec

end
-- ==== Proof.TileSpec.lean ====
import proofs.«157376_j6725918785543_2_alg».proof.Proof.Spec

noncomputable section

open scoped BigOperators

/-! # The statistics pass, tile by tile

The first kernel walks the 1048576 key rows in 128 tiles of 8192 rows, 64 tiles per half; half `h`, tile `i`, row `r`
of the tile is key row `(64 h + i) · 8192 + r`. Each half accumulates, over its 64 tiles, the unnormalised weights
against the value rows and the weights' row sums. -/

namespace Cert.Spec

open Idealize.ShloMosaic Idealize.ShloMosaic.ValueIdx

abbrev S2x128x128 : Shape := ⟨3, ![2, 128, 128]⟩
abbrev S2x128x1 : Shape := ⟨3, ![2, 128, 1]⟩

/-- The key row that half `h`, tile `i`, row `r` of the tile names. -/
def row (h : Fin 2) (i : Fin 64) (r : Fin 8192) : Fin 1048576 :=
  ⟨(64 * h.val + i.val) * 8192 + r.val, by have := h.isLt; have := i.isLt; have := r.isLt; omega⟩

theorem row_val (h : Fin 2) (i : Fin 64) (r : Fin 8192) : (row h i r).val = (64 * h.val + i.val) * 8192 + r.val := rfl

/-- One half's unnormalised weighted sum of the value rows. -/
def accSpec (ns : S128x128.Idx → EReal) (keys values : SNx128.Idx → EReal) : S2x128x128.Idx → EReal := fun j =>
  ∑ i : Fin 64, ∑ r : Fin 8192, w ns keys (j 1) (row (j 0) i r) * values (ix2 (row (j 0) i r) (j 2))

/-- One half's sum of the unnormalised weights. -/
def lSpec (ns : S128x128.Idx → EReal) (keys : SNx128.Idx → EReal) : S2x128x1.Idx → EReal := fun j =>
  ∑ i : Fin 64, ∑ r : Fin 8192, w ns keys (j 1) (row (j 0) i r)

theorem accSpec_apply (ns : S128x128.Idx → EReal) (keys values : SNx128.Idx → EReal) (h : Fin 2) (b d : Fin 128) :
    accSpec ns keys values (ix3 h b d) = ∑ i : Fin 64, ∑ r : Fin 8192, w ns keys b (row h i r) * values (ix2 (row h i r) d) := rfl

theorem lSpec_apply (ns : S128x128.Idx → EReal) (keys : SNx128.Idx → EReal) (h : Fin 2) (b : Fin 128) :
    lSpec ns keys (ix3 h b (0 : Fin 1)) = ∑ i : Fin 64, ∑ r : Fin 8192, w ns keys b (row h i r) := rfl

end Cert.Spec

end
-- ==== Proof.RefValue.lean ====
/-
  The reference program's two results are the specification.

  The reference normalises the state (`nsOf x`: each row divided by the larger of its Euclidean norm and a
  small positive constant), takes the scores `s = ns · keysᵀ`, divides them by the temperature `D`,
  subtracts each row's maximum `M`, exponentiates, divides by the row sum (a softmax), and then
  forms `softmax · values` and `age + ∑_b softmax`.

  Three facts carry the proof, all over the reals (every input entry is assumed a real):
  * `1 / D = c` exactly, where `D = 13366475 / 268435456` and `c = 268435456 / 13366475`, so `s / D = s * c`;
  * softmax is shift invariant: `exp (a_n - M) / ∑_k exp (a_k - M) = exp (a_n - c) / ∑_k exp (a_k - c)`
    for any reals `M`, `c` (the row maximum `M` is a real, being a maximum of finitely many reals over a
    nonempty index set);
  * `∑_n (e_n / L) * v_n = (∑_n e_n * v_n) / L` for `L ≠ 0`.
-/
import proofs.«157376_j6725918785543_2_alg».proof.Proof.Gen.ReferenceIdeal.Read
import proofs.«157376_j6725918785543_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open Cert.Spec (IsReal cc score w L wsSpec ageSpecTotal coe_sum score_real w_pos_real L_pos_real)
open scoped BigOperators

/-! ### The constants and the algebra over the reals -/

theorem ofBits_D : Ideal.ofBits .f32 0x3D4BF4CB#32 = ((13366475 / 268435456 : ℝ) : EReal) := by
  simp [Ideal.ofBits, Ideal.ieee, -EReal.coe_mul]; norm_num
theorem ofBits_negInf : Ideal.ofBits .f32 0xFF800000#32 = ⊥ := by simp [Ideal.ofBits, Ideal.ieee]
theorem ofBits_eps : ∃ e : ℝ, 0 < e ∧ Ideal.ofBits .f32 0x2B8CBCCC#32 = (e : EReal) := by
  refine ⟨9223372 * (2:ℝ)^(-63 : ℤ), by positivity, ?_⟩
  simp [Ideal.ofBits, Ideal.ieee, -EReal.coe_mul]

theorem div_coe_coe (a b : ℝ) (hb : b ≠ 0) : Ideal.div (a : EReal) (b : EReal) = ((a / b : ℝ) : EReal) := by
  rw [Ideal.div_coe hb, ← EReal.coe_mul, mul_one_div]

/-- The maximum, from `⊥`, of finitely many reals over a nonempty index set is a real. -/
theorem fold_max_real {ι : Type} [DecidableEq ι] (f : ι → EReal) (hf : ∀ i, ∃ r : ℝ, f i = (r : EReal)) (s : Finset ι)
    (hs : s.Nonempty) : ∃ m : ℝ, s.fold max ⊥ f = (m : EReal) := by
  have key : ∀ s : Finset ι, s.fold max ⊥ f = ⊥ ∧ s = ∅ ∨ ∃ m : ℝ, s.fold max ⊥ f = (m : EReal) := by
    intro s
    induction s using Finset.induction_on with
    | empty => exact Or.inl ⟨Finset.fold_empty, rfl⟩
    | insert a s ha ih =>
      right
      obtain ⟨r, hr⟩ := hf a
      rw [Finset.fold_insert ha, hr]
      rcases ih with ⟨h0, _⟩ | ⟨m, hm⟩
      · exact ⟨r, by rw [h0]; exact max_eq_left bot_le⟩
      · exact ⟨max r m, by rw [hm]; exact (EReal.coe_strictMono.monotone.map_max).symm⟩
  rcases key s with ⟨_, h0⟩ | h
  · exact absurd h0 hs.ne_empty
  · exact h

/-- Softmax is invariant under the shift: for real logits `σ`, a real shift `m` and a real `c`. -/
theorem softmax_shift {ι : Type} [Fintype ι] [Nonempty ι] (σ : ι → ℝ) (m c : ℝ) (n : ι) :
    Ideal.div (Ideal.exp ((σ n : EReal) - (m : EReal))) (0 + ∑ k : ι, Ideal.exp ((σ k : EReal) - (m : EReal)))
      = Ideal.div (Ideal.exp ((σ n : EReal) - (c : EReal))) (∑ k : ι, Ideal.exp ((σ k : EReal) - (c : EReal))) := by
  have e1 : ∀ (t : ℝ) (k : ι), Ideal.exp ((σ k : EReal) - (t : EReal)) = ((Real.exp (σ k - t) : ℝ) : EReal) := by
    intro t k; rw [← EReal.coe_sub, Ideal.exp_coe]
  simp only [e1, zero_add, ← coe_sum]
  have hpos : ∀ t : ℝ, 0 < ∑ k : ι, Real.exp (σ k - t) :=
    fun t => Finset.sum_pos (fun k _ => Real.exp_pos _) Finset.univ_nonempty
  rw [div_coe_coe _ _ (hpos m).ne', div_coe_coe _ _ (hpos c).ne']
  congr 1
  have hk : ∀ k, Real.exp (σ k - m) = Real.exp (σ k - c) * Real.exp (c - m) := by
    intro k; rw [← Real.exp_add]; congr 1; ring
  rw [hk n, Finset.sum_congr rfl (fun k _ => hk k), ← Finset.sum_mul]
  exact mul_div_mul_right _ _ (Real.exp_pos _).ne'

/-- A normalised weighted sum: dividing each weight by the total first, or the weighted sum afterwards. -/
theorem sum_div_mul {ι : Type} [Fintype ι] (wr vr : ι → ℝ) (Lr : ℝ) (hL : Lr ≠ 0) :
    ∑ n : ι, Ideal.div (wr n : EReal) (Lr : EReal) * (vr n : EReal)
      = Ideal.div (∑ n : ι, (wr n : EReal) * (vr n : EReal)) (Lr : EReal) := by
  simp only [div_coe_coe _ _ hL, ← EReal.coe_mul, ← coe_sum]
  congr 1
  rw [Finset.sum_div]
  exact Finset.sum_congr rfl fun n _ => by ring

/-! ### The reference, operation by operation -/

/-- The normalised state: each row of `x` divided by the larger of its Euclidean norm and a small positive constant. -/
def nsOf (x0 : (⟨S128x128, .f32⟩ : BufTy).Contents (Elt Ideal)) : Cert.Spec.S128x128.Idx → EReal :=
  val_main_v4 (F := Ideal) x0

variable (x0 : (⟨S128x128, .f32⟩ : BufTy).Contents (Elt Ideal))
  (x1 x2 : (⟨S1048576x128, .f32⟩ : BufTy).Contents (Elt Ideal))
  (x3 : (⟨S1048576, .f32⟩ : BufTy).Contents (Elt Ideal))

/-- The normalised state of a real array is real: the divisor is a positive real. -/
theorem nsOf_real (h0 : IsReal x0) : IsReal (nsOf x0) := by
  intro i
  choose f hf using h0
  obtain ⟨e, he0, he⟩ := ofBits_eps
  have hden : ∃ d : ℝ, 0 < d ∧ val_main_v3 (F := Ideal) x0 i = (d : EReal) := by
    rw [val_main_v3_apply, val_main_v2_apply, val_main_v0_apply, val_main_v1_apply, val_main_cst_apply,
      val_main_call0_v2_apply, val_main_call0_v1_apply, val_main_call0_cst_apply]
    simp only [val_main_call0_v0_apply, hf, Ideal.mulf_def, ← EReal.coe_mul, ← coe_sum, Ideal.ofBits_def,
      Ideal.ofBits_zero_f32, zero_add, Ideal.hostUnary_sqrt_def, Ideal.maximumf_def, he]
    rw [Ideal.sqrt_coe, if_neg (not_lt.2 (Finset.sum_nonneg fun k _ => mul_self_nonneg _))]
    exact ⟨_, lt_max_of_lt_right he0, (EReal.coe_strictMono.monotone.map_max).symm⟩
  obtain ⟨d, hd0, hd⟩ := hden
  refine ⟨f i / d, ?_⟩
  show Ideal.div (x0 i) (val_main_v3 (F := Ideal) x0 i) = _
  rw [hd, hf, div_coe_coe _ _ hd0.ne']

/-- The first matrix product is the score. -/
theorem v6_eq (b : Fin 128) (n : Fin 1048576) :
    val_main_v6 (F := Ideal) x0 x1 (ix2 b n) = score (nsOf x0) x1 b n := by
  rw [val_main_v6_apply]
  unfold score nsOf
  refine Finset.sum_congr rfl fun k _ => ?_
  rw [val_main_v5_apply]
  have e1 : lidx_main_v6 (ix2 b n) k = ix2 b k :=
    funext fun a => by match a with | ⟨0, _⟩ => rfl | ⟨1, _⟩ => rfl
  have e2 : idx_main_v5 (ridx_main_v6 (ix2 b n) k) = ix2 n k :=
    funext fun a => by match a with | ⟨0, _⟩ => rfl | ⟨1, _⟩ => rfl
  rw [e1, e2]

/-- Dividing by the temperature is multiplying by its exact reciprocal `c`. -/
theorem v8_eq (b : Fin 128) (n : Fin 1048576) :
    val_main_v8 (F := Ideal) x0 x1 (ix2 b n) = score (nsOf x0) x1 b n * cc := by
  rw [val_main_v8_apply, val_main_v7_apply, val_main_cst_0_apply, v6_eq]
  show Ideal.div _ (Ideal.ofBits .f32 0x3D4BF4CB#32) = _
  rw [ofBits_D, Ideal.div_coe (by norm_num)]
  rw [show ((1 / (13366475 / 268435456) : ℝ)) = (268435456 / 13366475 : ℝ) by norm_num]
  rfl

/-- Every scaled score is a real. -/
theorem v8_real (hns : IsReal (nsOf x0)) (h1 : IsReal x1) (j : S128x1048576.Idx) :
    ∃ r : ℝ, val_main_v8 (F := Ideal) x0 x1 j = (r : EReal) := by
  obtain ⟨b, n, rfl⟩ : ∃ (b : Fin 128) (n : Fin 1048576), j = ix2 b n := ⟨j 0, j 1, ValueIdx.eq_ix2 j⟩
  rw [v8_eq]
  obtain ⟨s, hs⟩ := score_real hns h1 b n
  exact ⟨s * (268435456 / 13366475), by rw [hs]; unfold cc; rw [← EReal.coe_mul]⟩

/-- Each row's maximum is a real. -/
theorem v11_real (hns : IsReal (nsOf x0)) (h1 : IsReal x1) (b : Fin 128) :
    ∃ m : ℝ, val_main_v11 (F := Ideal) x0 x1 (ix1 b) = (m : EReal) := by
  rw [val_main_v11_apply, val_main_v10_apply, val_main_cst_2_apply]
  have hred : S128x1048576.Reduces [1] S128 := by decide
  have h9 : val_main_v9 (F := Ideal) x0 x1 (ix1 b)
      = (Finset.univ : Finset (Fin (S128x1048576.size 1))).fold max ⊥ (val_main_v8 (F := Ideal) x0 x1 ∘ hred.lift (ix1 b)) := by
    unfold val_main_v9
    rw [Host.reduce_eq_fold_single FloatOps.maximumf _ _ reducesTo_S128x1048576_S128_d1 hred h_S_, val_main_cst_1_apply]
    show Finset.fold max (Ideal.ofBits .f32 0xFF800000#32) _ _ = _
    rw [ofBits_negInf]
  obtain ⟨m, hm⟩ := fold_max_real (val_main_v8 (F := Ideal) x0 x1 ∘ hred.lift (ix1 b))
    (fun k => v8_real x0 x1 hns h1 _) Finset.univ ⟨⟨0, by show 0 < 1048576; norm_num⟩, Finset.mem_univ _⟩
  refine ⟨m, ?_⟩
  rw [h9, hm]
  show max (Ideal.ofBits .f32 0xFF800000#32) (m : EReal) = _
  rw [ofBits_negInf]
  exact max_eq_right bot_le

/-- The exponentials, before normalisation. -/
theorem v15_eq (b : Fin 128) (k : Fin 1048576) :
    val_main_v15 (F := Ideal) x0 x1 (ix2 b k)
      = Ideal.exp (score (nsOf x0) x1 b k * cc - val_main_v11 (F := Ideal) x0 x1 (ix1 b)) := by
  rw [val_main_v15_apply, val_main_v14_apply, val_main_v13_apply, val_main_v12_apply, v8_eq]
  have e : idx_main_v12 (idx_main_v13 (ix2 b k)) = ix1 b :=
    funext fun a => by match a with | ⟨0, _⟩ => rfl
  rw [e]
  rfl

/-- The softmax entry as a quotient of the exponentials. -/
theorem v19_eq_quot (b : Fin 128) (n : Fin 1048576) :
    val_main_v19 (F := Ideal) x0 x1 (ix2 b n)
      = Ideal.div (val_main_v15 (F := Ideal) x0 x1 (ix2 b n))
          (0 + ∑ k : Fin 1048576, val_main_v15 (F := Ideal) x0 x1 (ix2 b k)) := by
  rw [val_main_v19_apply, val_main_v18_apply, val_main_v17_apply, val_main_v16_apply, val_main_cst_3_apply]
  have e : idx_main_v17 (idx_main_v18 (ix2 b n)) = ix1 b :=
    funext fun a => by match a with | ⟨0, _⟩ => rfl
  have e2 : ∀ k : Fin 1048576, idx_main_v16 (ix1 b) k = ix2 b k :=
    fun k => funext fun a => by match a with | ⟨0, _⟩ => rfl | ⟨1, _⟩ => rfl
  rw [e]
  simp only [e2]
  show Ideal.div _ (Ideal.ofBits .f32 0x00000000#32 + _) = _
  rw [Ideal.ofBits_zero_f32]

/-- The softmax entry is the specification's normalised weight. -/
theorem v19_eq (hns : IsReal (nsOf x0)) (h1 : IsReal x1) (b : Fin 128) (n : Fin 1048576) :
    val_main_v19 (F := Ideal) x0 x1 (ix2 b n) = Ideal.div (w (nsOf x0) x1 b n) (L (nsOf x0) x1 b) := by
  rw [v19_eq_quot]
  obtain ⟨m, hm⟩ := v11_real x0 x1 hns h1 b
  choose σ hσ using fun k => score_real hns h1 b k
  have h15 : ∀ k, val_main_v15 (F := Ideal) x0 x1 (ix2 b k)
      = Ideal.exp (((σ k * (268435456 / 13366475) : ℝ) : EReal) - (m : EReal)) := by
    intro k; rw [v15_eq, hm, hσ]; unfold cc; rw [← EReal.coe_mul]
  have hw : ∀ k, w (nsOf x0) x1 b k
      = Ideal.exp (((σ k * (268435456 / 13366475) : ℝ) : EReal) - ((268435456 / 13366475 : ℝ) : EReal)) := by
    intro k; unfold w cc; rw [hσ, ← EReal.coe_mul]
  haveI : Nonempty (Fin 1048576) := ⟨⟨0, by norm_num⟩⟩
  unfold L
  simp only [h15, hw]
  exact softmax_shift (fun k => σ k * (268435456 / 13366475)) m (268435456 / 13366475) n

/-! ### The two results -/

/-- The reference's weighted sum is the specification's. -/
theorem val_main_v20_eq_wsSpec (h0 : IsReal x0) (h1 : IsReal x1) (h2 : IsReal x2) :
    val_main_v20 (F := Ideal) x0 x1 x2 = wsSpec (nsOf x0) x1 x2 := by
  have hns := nsOf_real x0 h0
  funext j
  obtain ⟨b, d, rfl⟩ : ∃ (b d : Fin 128), j = ix2 b d := ⟨j 0, j 1, ValueIdx.eq_ix2 j⟩
  rw [val_main_v20_apply, Cert.Spec.wsSpec_apply]
  have e1 : ∀ k : Fin 1048576, lidx_main_v20 (ix2 b d) k = ix2 b k :=
    fun k => funext fun a => by match a with | ⟨0, _⟩ => rfl | ⟨1, _⟩ => rfl
  have e2 : ∀ k : Fin 1048576, ridx_main_v20 (ix2 b d) k = ix2 k d :=
    fun k => funext fun a => by match a with | ⟨0, _⟩ => rfl | ⟨1, _⟩ => rfl
  simp only [e1, e2, v19_eq x0 x1 hns h1]
  choose wr _ hwr using fun k => w_pos_real hns h1 b k
  obtain ⟨Lr, hL0, hL⟩ := L_pos_real hns h1 b
  choose vr hvr using h2
  simp only [hwr, hL, hvr]
  exact sum_div_mul wr (fun k => vr (ix2 k d)) Lr hL0.ne'

/-- The reference's new age vector is the specification's. -/
theorem val_main_v22_eq_ageSpecTotal (h0 : IsReal x0) (h1 : IsReal x1) :
    val_main_v22 (F := Ideal) x0 x1 x3 = ageSpecTotal (nsOf x0) x1 x3 := by
  have hns := nsOf_real x0 h0
  funext j
  obtain ⟨n, rfl⟩ : ∃ n : Fin 1048576, j = ix1 n := ⟨j 0, ValueIdx.eq_ix1 j⟩
  rw [val_main_v22_apply, val_main_v21_apply, val_main_cst_4_apply, Cert.Spec.ageSpecTotal_apply]
  have e : ∀ k : Fin 128, idx_main_v21 (ix1 n) k = ix2 k n :=
    fun k => funext fun a => by match a with | ⟨0, _⟩ => rfl | ⟨1, _⟩ => rfl
  simp only [e, v19_eq x0 x1 hns h1]
  show x3 (ix1 n) + (Ideal.ofBits .f32 0x00000000#32 + _) = _
  rw [Ideal.ofBits_zero_f32, zero_add]

end Cert.ReferenceIdeal.RefValue

end
-- ==== Proof.HostGlue.lean ====
/-
  The host side of the kernel program: the normalised state, the merge of the two halves of the
  statistics pass, and the closing reshape.

  * The 1048576 key rows are enumerated half by half (2), tile by tile (64 per half), row by row (8192 per
    tile): a sum over all key rows is the triple sum over that enumeration.
  * The merge adds the two halves' accumulators, adds the two halves' normalisers, and divides: with the
    halves holding the tile sums of the specification, the quotient is the specification's weighted sum.
  * The age vector enters the second kernel as a one-row matrix and leaves it the same way.
-/
import proofs.«157376_j6725918785543_2_alg».proof.Proof.Gen.KernelIdeal.Regions
import proofs.«157376_j6725918785543_2_alg».proof.Proof.TileSpec
import proofs.«157376_j6725918785543_2_alg».proof.Proof.RefValue
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx
open Cert.Spec (cc score w L wsSpec ageSpecTotal accSpec lSpec row row_val)
open scoped BigOperators

/-! ### Summing over the key rows tile by tile -/

/-- The 1048576 key rows, enumerated half by half, tile by tile, row by row. -/
def tileEquiv : Fin 2 × Fin 64 × Fin 8192 ≃ Fin 1048576 :=
  (Equiv.prodAssoc (Fin 2) (Fin 64) (Fin 8192)).symm.trans
    ((Equiv.prodCongr (finProdFinEquiv (m := 2) (n := 64)) (Equiv.refl (Fin 8192))).trans
      (finProdFinEquiv (m := 2 * 64) (n := 8192)))

theorem tileEquiv_apply (h : Fin 2) (i : Fin 64) (r : Fin 8192) : tileEquiv (h, i, r) = row h i r := by
  apply Fin.ext
  show ((finProdFinEquiv (finProdFinEquiv (h, i), r) : Fin (2 * 64 * 8192)) : ℕ) = _
  rw [finProdFinEquiv_apply_val]
  dsimp only
  rw [finProdFinEquiv_apply_val]
  dsimp only
  rw [row_val]
  omega

theorem sum_tiles {M : Type} [AddCommMonoid M] (f : Fin 1048576 → M) :
    ∑ n : Fin 1048576, f n = ∑ h : Fin 2, ∑ i : Fin 64, ∑ r : Fin 8192, f (row h i r) := by
  rw [← Equiv.sum_comp tileEquiv f, Fintype.sum_prod_type]
  refine Finset.sum_congr rfl fun h _ => ?_
  rw [Fintype.sum_prod_type]
  refine Finset.sum_congr rfl fun i _ => Finset.sum_congr rfl fun r _ => ?_
  rw [tileEquiv_apply]

/-! ### Reading the layout operations at an index -/

/-- Half `h` of a [2,128,128] array, its leading unit axis dropped, read at (b, d). -/
theorem read_half_acc (x : S2x128x128.Idx → EReal) (off : Fin 3 → ℕ) (h : Fin 2) (h0 : off 0 = h.val) (h1 : off 1 = 0)
    (h2 : off 2 = 0) (hs : S2x128x128.Slices off S1x128x128) (hc : S1x128x128.ShapeCasts S128x128) (b d : Fin 128) :
    shapeCast S128x128 (extractStridedSlice S1x128x128 off x hs) hc (ix2 b d) = x (ix3 h b d) := by
  refine (shapeCast_apply _ hc (ix2 b d) (ix3 (0 : Fin 1) b d)
    (by rw [Shape.rowMajor_val_three, Shape.rowMajor_val_two]; simp)).trans ?_
  exact extractStridedSlice_apply off x hs _ (ix3 h b d) (fun a => match a with
    | ⟨0, _⟩ => by show h.val = off 0 + 0; omega
    | ⟨1, _⟩ => by show b.val = off 1 + b.val; omega
    | ⟨2, _⟩ => by show d.val = off 2 + d.val; omega)

/-- Half `h` of a [2,128,1] array, its leading unit axis dropped, read at (b, 0). -/
theorem read_half_l (x : S2x128x1.Idx → EReal) (off : Fin 3 → ℕ) (h : Fin 2) (h0 : off 0 = h.val) (h1 : off 1 = 0)
    (h2 : off 2 = 0) (hs : S2x128x1.Slices off S1x128x1) (hc : S1x128x1.ShapeCasts S128x1) (b : Fin 128) :
    shapeCast S128x1 (extractStridedSlice S1x128x1 off x hs) hc (ix2 b (0 : Fin 1)) = x (ix3 h b (0 : Fin 1)) := by
  refine (shapeCast_apply _ hc (ix2 b (0 : Fin 1)) (ix3 (0 : Fin 1) b (0 : Fin 1))
    (by rw [Shape.rowMajor_val_three, Shape.rowMajor_val_two]; simp)).trans ?_
  exact extractStridedSlice_apply off x hs _ (ix3 h b (0 : Fin 1)) (fun a => match a with
    | ⟨0, _⟩ => by show h.val = off 0 + 0; omega
    | ⟨1, _⟩ => by show b.val = off 1 + b.val; omega
    | ⟨2, _⟩ => by show 0 = off 2 + 0; omega)

/-- A [128,1] column broadcast along the rows, read at (b, d), is the column at (b, 0). -/
theorem read_bcast_col (y : S128x1.Idx → EReal) (hb : S128x1.BroadcastsInDim S128x128 (![0, 1] : Fin 2 → Fin S128x128.rank))
    (b d : Fin 128) : broadcastInDim S128x128 ![0, 1] hb y (ix2 b d) = y (ix2 b (0 : Fin 1)) :=
  broadcastInDim_apply _ hb y (ix2 b d) (ix2 b (0 : Fin 1)) (fun a => match a with
    | ⟨0, _⟩ => by show b.val = if (128 : Nat) = 1 then 0 else b.val; rw [if_neg (by decide)]
    | ⟨1, _⟩ => by show 0 = if (1 : Nat) = 1 then 0 else d.val; rw [if_pos rfl])

/-! ### The merge stretch -/

variable (X : Valuation τ sig (Elt Ideal))

/-- What the first kernel's accumulator output holds, as an array of extended reals. -/
abbrev accOf : S2x128x128.Idx → EReal := X main_v5_0
/-- What the first kernel's normaliser output holds, as an array of extended reals. -/
abbrev lOf : S2x128x1.Idx → EReal := X main_v5_1

/-- The merged normaliser column, read at (b, 0): the two halves' normalisers added. -/
theorem hostOps1_v15_read (b : Fin 128) :
    (StableHlo.after (hostOps1 (F := Ideal)) X main_v15 (ix2 b (0 : Fin 1)) : EReal)
      = lOf X (ix3 (0 : Fin 2) b (0 : Fin 1))
        + lOf X (ix3 (1 : Fin 2) b (0 : Fin 1)) := by
  show StableHlo.after hostOps1 X (Proc.devRef .tc main_v15) _ = _
  after_results
  show shapeCast S128x1 (extractStridedSlice S1x128x1 ![0, 0, 0] (lOf X) _) _ (ix2 b (0 : Fin 1))
      + shapeCast S128x1 (extractStridedSlice S1x128x1 ![1, 0, 0] (lOf X) _) _ (ix2 b (0 : Fin 1)) = _
  rw [read_half_l _ _ (0 : Fin 2) rfl rfl rfl, read_half_l _ _ (1 : Fin 2) rfl rfl rfl]

/-- The merged weighted sum, read at (b, d): the halves' accumulators added, over the halves' normalisers added. -/
theorem hostOps1_v17_read (b d : Fin 128) :
    (StableHlo.after (hostOps1 (F := Ideal)) X main_v17 (ix2 b d) : EReal)
      = Ideal.div (accOf X (ix3 (0 : Fin 2) b d) + accOf X (ix3 (1 : Fin 2) b d))
          (lOf X (ix3 (0 : Fin 2) b (0 : Fin 1))
            + lOf X (ix3 (1 : Fin 2) b (0 : Fin 1))) := by
  show StableHlo.after hostOps1 X (Proc.devRef .tc main_v17) _ = _
  after_results
  show Ideal.div
      (shapeCast S128x128 (extractStridedSlice S1x128x128 ![0, 0, 0] (accOf X) _) _ (ix2 b d)
        + shapeCast S128x128 (extractStridedSlice S1x128x128 ![1, 0, 0] (accOf X) _) _ (ix2 b d))
      (broadcastInDim S128x128 ![0, 1] _ (fun i : S128x1.Idx =>
        shapeCast S128x1 (extractStridedSlice S1x128x1 ![0, 0, 0] (lOf X) _) _ i
        + shapeCast S128x1 (extractStridedSlice S1x128x1 ![1, 0, 0] (lOf X) _) _ i) (ix2 b d)) = _
  rw [read_bcast_col, read_half_acc _ _ (0 : Fin 2) rfl rfl rfl, read_half_acc _ _ (1 : Fin 2) rfl rfl rfl,
    read_half_l _ _ (0 : Fin 2) rfl rfl rfl, read_half_l _ _ (1 : Fin 2) rfl rfl rfl]

/-- The age vector as a one-row matrix. -/
theorem hostOps1_v18_read (n : Fin 1048576) :
    (StableHlo.after (hostOps1 (F := Ideal)) X main_v18 (ix2 (0 : Fin 1) n) : EReal) = X main_arg3 (ix1 n) := by
  show StableHlo.after hostOps1 X (Proc.devRef .tc main_v18) _ = _
  after_results
  show shapeCast S1x1048576 (X (Proc.devRef .tc main_arg3)) _ (ix2 (0 : Fin 1) n) = _
  exact shapeCast_apply _ _ (ix2 (0 : Fin 1) n) (ix1 n) (by rw [Shape.rowMajor_val_two, Shape.rowMajor_val_one]; simp)

/-- The closing reshape: the one-row matrix the second kernel leaves, as a vector. -/
theorem hostOps2_v20_read (n : Fin 1048576) :
    (StableHlo.after (hostOps2 (F := Ideal)) X main_v20 (ix1 n) : EReal) = X main_v19 (ix2 (0 : Fin 1) n) := by
  show StableHlo.after hostOps2 X (Proc.devRef .tc main_v20) _ = _
  after_results
  show shapeCast S1048576 (X (Proc.devRef .tc main_v19)) _ (ix1 n) = _
  exact shapeCast_apply _ _ (ix1 n) (ix2 (0 : Fin 1) n) (by rw [Shape.rowMajor_val_two, Shape.rowMajor_val_one]; simp)

/-- The merge stretch leaves what it does not write. -/
theorem hostOps1_keeps (r : Ref sig .tc) (h : r ∉ hostOps1_W) : StableHlo.after (hostOps1 (F := Ideal)) X r = X r :=
  StableHlo.after_of_writes_sub hostOps1 X hostOps1_writes h

theorem hostOps1_main_v4 : StableHlo.after (hostOps1 (F := Ideal)) X main_v4 = X main_v4 := hostOps1_keeps X _ (by decide)
theorem hostOps1_main_arg1 : StableHlo.after (hostOps1 (F := Ideal)) X main_arg1 = X main_arg1 := hostOps1_keeps X _ (by decide)
theorem hostOps1_main_arg2 : StableHlo.after (hostOps1 (F := Ideal)) X main_arg2 = X main_arg2 := hostOps1_keeps X _ (by decide)
theorem hostOps1_main_arg3 : StableHlo.after (hostOps1 (F := Ideal)) X main_arg3 = X main_arg3 := hostOps1_keeps X _ (by decide)

/-- The closing reshape leaves the weighted sum. -/
theorem hostOps2_main_v17 : StableHlo.after (hostOps2 (F := Ideal)) X main_v17 = X main_v17 :=
  StableHlo.after_of_writes_sub hostOps2 X hostOps2_writes (by decide)

/-! ### The merge is the specification -/

variable (ns : Cert.Spec.S128x128.Idx → EReal) (keys values : Cert.Spec.SNx128.Idx → EReal)

/-- The merged normaliser is the specification's. -/
theorem hostOps1_v15_eq_L (hl : X main_v5_1 = lSpec ns keys) (b : Fin 128) :
    (StableHlo.after (hostOps1 (F := Ideal)) X main_v15 (ix2 b (0 : Fin 1)) : EReal) = L ns keys b := by
  have hl' : lOf X = lSpec ns keys := hl
  rw [hostOps1_v15_read, hl', Cert.Spec.lSpec_apply, Cert.Spec.lSpec_apply]
  unfold L
  rw [sum_tiles, Fin.sum_univ_two]

/-- The merged weighted sum is the specification's. -/
theorem hostOps1_v17_eq_wsSpec (hacc : X main_v5_0 = accSpec ns keys values) (hl : X main_v5_1 = lSpec ns keys) :
    StableHlo.after (hostOps1 (F := Ideal)) X main_v17 = wsSpec ns keys values := by
  funext j
  obtain ⟨b, d, rfl⟩ : ∃ (b d : Fin 128), j = ix2 b d := ⟨j 0, j 1, ValueIdx.eq_ix2 j⟩
  have hacc' : accOf X = accSpec ns keys values := hacc
  have hl' : lOf X = lSpec ns keys := hl
  rw [hostOps1_v17_read, hacc', hl', Cert.Spec.accSpec_apply, Cert.Spec.accSpec_apply, Cert.Spec.lSpec_apply,
    Cert.Spec.lSpec_apply, Cert.Spec.wsSpec_apply]
  unfold L
  rw [sum_tiles (fun n => w ns keys b n * values (ix2 n d)), sum_tiles (fun n => w ns keys b n), Fin.sum_univ_two,
    Fin.sum_univ_two]

/-! ### The normalised state -/

/-- Before the first kernel the normalised state is the reference's: both programs perform the same host operations. -/
theorem V2_main_v4 (m : (ℓ : Loc nD τ sig) → Buf (Elt Ideal) ℓ) (c : Dev nD) :
    V2 m c main_v4 = Cert.ReferenceIdeal.RefValue.nsOf (m ((c : Thread nD τ).loc main_arg0)) := by
  show StableHlo.after hostOps0_1 (StableHlo.after hostOps0 (V0 m c)) (Proc.devRef .tc main_v4) = _
  after_results
  rfl

theorem V2_main_arg1 (m : (ℓ : Loc nD τ sig) → Buf (Elt Ideal) ℓ) (c : Dev nD) :
    V2 m c main_arg1 = m ((c : Thread nD τ).loc main_arg1) :=
  (V2_of m c main_arg1 (by decide)).trans ((V1_of m c main_arg1 (by decide)).trans rfl)
theorem V2_main_arg2 (m : (ℓ : Loc nD τ sig) → Buf (Elt Ideal) ℓ) (c : Dev nD) :
    V2 m c main_arg2 = m ((c : Thread nD τ).loc main_arg2) :=
  (V2_of m c main_arg2 (by decide)).trans ((V1_of m c main_arg2 (by decide)).trans rfl)
theorem V2_main_arg3 (m : (ℓ : Loc nD τ sig) → Buf (Elt Ideal) ℓ) (c : Dev nD) :
    V2 m c main_arg3 = m ((c : Thread nD τ).loc main_arg3) :=
  (V2_of m c main_arg3 (by decide)).trans ((V1_of m c main_arg3 (by decide)).trans rfl)

/-! ### The age pass against the specification -/

/-- With the merged normalisers and the age vector as a one-row matrix, the age pass's value is the specification's. -/
theorem ageSpec_eq_total (age : Cert.Spec.SN.Idx → EReal) (age2d : S1x1048576.Idx → EReal) (l : S128x1.Idx → EReal)
    (invTemp : EReal) (hc : invTemp = cc)
    (hl : ∀ b : Fin 128, l (ix2 b (0 : Fin 1)) = L ns keys b) (hage : ∀ n : Fin 1048576, age2d (ix2 (0 : Fin 1) n) = age (ix1 n))
    (n : Fin 1048576) :
    age2d (ix2 (0 : Fin 1) n) + ∑ b : Fin 128, Ideal.div (Ideal.exp ((∑ k : Fin 128, ns (ix2 b k) * keys (ix2 n k)) * invTemp - invTemp))
        (l (ix2 b (0 : Fin 1)))
      = ageSpecTotal ns keys age (ix1 n) := by
  rw [Cert.Spec.ageSpecTotal_apply, hage, hc]
  refine congrArg (_ + ·) (Finset.sum_congr rfl fun b _ => ?_)
  rw [hl]
  rfl

end Cert.KernelIdeal.Hand

end
-- ==== Proof.IdealAgeValue.lean ====
/- The value half of the second TensorCore region (the age update) at the ideal values: the array the region
   leaves in its output window, as one function of the arrays it finds. At key row `n` it is the age there plus,
   summed over the 128 state rows `b`, `exp (⟨ns b, keys n⟩ · c − c) / l b`, with `c` the named reciprocal of the
   temperature. The body's payload is read at an index (the contraction as a sum over its one axis, the
   reduction over the state rows as a sum, the bf16 casts the identity), each point's write-back is a block of
   that one function, and the 64 blocks cover the array. -/
import proofs.«157376_j6725918785543_2_alg».proof.Proof.IdealAge
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Tactic

set_option synthInstance.maxSize 4096
set_option maxRecDepth 16384

noncomputable section

open scoped BigOperators

namespace Cert.KernelIdeal.Hand.Age

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-- The constant the kernel multiplies and shifts the similarities by: the reciprocal of the temperature. -/
abbrev invTemp : EReal := ((268435456 / 13366475 : ℝ) : EReal)

/-- The age array the region leaves, as one function of the arrays it finds: at key row `n`, the age there
    plus, summed over the 128 state rows `b`, the weight `exp (⟨ns b, keys n⟩ · c − c)` divided by row `b`'s
    denominator. -/
def ageSpec (ns : S128x128.Idx → Elt Ideal .f32) (keys : S1048576x128.Idx → Elt Ideal .f32)
    (age : S1x1048576.Idx → Elt Ideal .f32) (l : S128x1.Idx → Elt Ideal .f32) : S1x1048576.Idx → Elt Ideal .f32 :=
  fun i => age i + ∑ b : Fin 128,
    Ideal.div (Ideal.exp ((∑ k : Fin 128, ns (ix2 b k) * keys (ix2 (i 1) k)) * invTemp - invTemp)) (l (ix2 b (0 : Fin 1)))

theorem ageSpec_apply (ns : S128x128.Idx → Elt Ideal .f32) (keys : S1048576x128.Idx → Elt Ideal .f32)
    (age : S1x1048576.Idx → Elt Ideal .f32) (l : S128x1.Idx → Elt Ideal .f32) (n : Fin 1048576) :
    ageSpec ns keys age l (ix2 (0 : Fin 1) n) = age (ix2 (0 : Fin 1) n) + ∑ b : Fin 128,
      Ideal.div (Ideal.exp ((∑ k : Fin 128, ns (ix2 b k) * keys (ix2 n k)) * invTemp - invTemp)) (l (ix2 b (0 : Fin 1))) := rfl

/-- The reduced index with the state row inserted is the pair (row, column). -/
theorem lift_eq (j : Fin 16384) (b : Fin 128) :
    (reduces_S128x16384_S16384).lift (ix1 j) b = ix2 b j := by
  funext a; apply Fin.ext
  match a with
  | ⟨0, _⟩ => rfl
  | ⟨1, _⟩ => rfl

/-- The named constant's value at the ideal instance. -/
theorem named_eq : Named.named (F := Ideal) κ "inv_temp" (φ := .f32) 0x41A0A974#32 = invTemp :=
  IdealRules.named_const.ideal_named_scalar _ _ _ _ rfl

/-- The product of a [128,128] by a [128,16384] matrix into the zero accumulator, read at an index: the sum
    over the contracted coordinate of the products of the entries. -/
theorem dot_apply (A : FVec Ideal S128x128 .bf16) (B : FVec Ideal S128x16384 .bf16) (b : Fin 128) (j : Fin 16384) :
    matmul dot_S128x128_S128x16384_S128x16384_1_0_0_1_n_n none A B (constant S128x16384 .f32 0x00000000#32) (ix2 b j)
      = ∑ k : Fin 128, A (ix2 b k) * B (ix2 k j) := by
  show FloatOps.matmul _ none A B _ (ix2 b j) = _
  rw [Ideal.matmul_constant_zero_apply, ← Equiv.sum_comp (contrEquiv1 dot_S128x128_S128x16384_S128x16384_1_0_0_1_n_n 128 rfl rfl).symm]
  refine Finset.sum_congr rfl fun k _ => ?_
  have c2 := contrEquiv1_symm_val dot_S128x128_S128x16384_S128x16384_1_0_0_1_n_n 128 rfl rfl k
  have l2 : dot_S128x128_S128x16384_S128x16384_1_0_0_1_n_n.lhsIdx (ix2 b j) ((contrEquiv1 _ 128 rfl rfl).symm k) = ix2 b k := by
    funext ax; apply Fin.ext
    match ax with
    | ⟨0, _⟩ => simp [DotDims.lhsIdx, dot_S128x128_S128x16384_S128x16384_1_0_0_1_n_n]; rfl
    | ⟨1, _⟩ => simp [DotDims.lhsIdx, dot_S128x128_S128x16384_S128x16384_1_0_0_1_n_n]; exact c2
  have r2 : dot_S128x128_S128x16384_S128x16384_1_0_0_1_n_n.rhsIdx (ix2 b j) ((contrEquiv1 _ 128 rfl rfl).symm k) = ix2 k j := by
    funext ax; apply Fin.ext
    match ax with
    | ⟨0, _⟩ => simp [DotDims.rhsIdx, dot_S128x128_S128x16384_S128x16384_1_0_0_1_n_n]; exact c2
    | ⟨1, _⟩ => simp [DotDims.rhsIdx, dot_S128x128_S128x16384_S128x16384_1_0_0_1_n_n]; rfl
  rw [l2, r2]

/-- The body's payload read at column `j` of its block: the age there plus the sum over the state rows of the
    normalised weights. -/
theorem pay_apply (x0 : Vec Ideal S128x128 .f32) (x1 : Vec Ideal S16384x128 .f32) (x3 : Vec Ideal S128x1 .f32)
    (x2 : Vec Ideal S1x16384 .f32) (j : Fin 16384) :
    k1_pay1 (F := Ideal) x0 x1 x3 x2 (ix2 (0 : Fin 1) j)
      = x2 (ix2 (0 : Fin 1) j) + ∑ b : Fin 128,
          Ideal.div (Ideal.exp ((∑ k : Fin 128, x0 (ix2 b k) * x1 (ix2 j k)) * invTemp - invTemp)) (x3 (ix2 b (0 : Fin 1))) := by
  unfold k1_pay1
  simp only [shapeCast_self]
  rw [addf_apply]
  refine congrArg (fun z => x2 (ix2 (0 : Fin 1) j) + z) ?_
  refine (shapeCast_apply _ shapeCasts_S16384_S1x16384 (ix2 (0 : Fin 1) j) (ix1 j) ?_).trans ?_
  · rw [Shape.rowMajor_val_one, Shape.rowMajor_val_two]
    show (j : ℕ) = 0 * 16384 + (j : ℕ)
    omega
  refine (Ideal.multiReduction_add_single _ _ reduces_S128x16384_S16384 _ _ (ix1 j)).trans ?_
  show ∑ b : Fin 128, _ = _
  refine Finset.sum_congr rfl fun b _ => ?_
  rw [lift_eq, divf_apply]
  refine congrArg₂ Ideal.div ?_ ?_
  · show Ideal.exp _ = _
    refine congrArg Ideal.exp ?_
    rw [subf_apply, mulf_apply, broadcast_apply, named_eq, dot_apply]
    refine congrArg (fun z => z * invTemp - invTemp) ?_
    refine Finset.sum_congr rfl fun k _ => ?_
    rw [truncf_apply]
    refine congrArg (fun z => x0 (ix2 b k) * z) ?_
    refine (transpose_apply _ _ transposes_S16384x128_p1_0_S128x16384 (ix2 k j) (ix2 j k) ?_).trans ?_
    · intro a
      match a with
      | ⟨0, _⟩ => rfl
      | ⟨1, _⟩ => rfl
    · rw [truncf_apply]
  · refine broadcastTo_apply _ broadcasts_S128x1_S128x16384 (ix2 b j) (ix2 b (0 : Fin 1)) ?_
    intro a
    match a with
    | ⟨0, _⟩ => rfl
    | ⟨1, _⟩ => rfl

section Region
variable (V : (c : Dev nD) → (b : Ref sig .tc) → Buf (Elt Ideal) ((c : Thread nD τ).loc b))

theorem hz : (![0, 0] : Fin 2 → Nat) = fun _ => 0 := funext fun a => by fin_cases a <;> rfl

/-- The windows' index maps over the 64 points: the state and the denominators stay at block (0, 0); the key
    block moves down the rows and the age and output blocks along the columns, each one block per point. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = t.val :=
  (by decide +kernel : ∀ t : Fin grid1.N, _)

/-- The state block at any point is the whole normalised state. -/
theorem iblk_ns (c : Dev nD) (t : Fin cfg1.N) (b k : Fin 128) : iblk1 V c 0 t (ix2 b k) = V c main_v4 (ix2 b k) := by
  obtain ⟨e00, e01, e10, e11, e20, e21, e30, e31, e40, e41⟩ := idx_facts t
  unfold iblk1
  rw [View.read_apply]
  show V c main_v4 _ = V c main_v4 _
  refine congrArg (V c main_v4) ?_
  funext a; apply Fin.ext
  match a with
  | ⟨0, _⟩ => show win1_0.index t (0 : Fin 2) * 128 + 1 * (b : ℕ) = (b : ℕ); rw [e00]; omega
  | ⟨1, _⟩ => show win1_0.index t (1 : Fin 2) * 128 + 1 * (k : ℕ) = (k : ℕ); rw [e01]; omega

/-- The denominators' block at any point is the whole column of denominators. -/
theorem iblk_l (c : Dev nD) (t : Fin cfg1.N) (b : Fin 128) : iblk1 V c 3 t (ix2 b (0 : Fin 1)) = V c main_v15 (ix2 b (0 : Fin 1)) := by
  obtain ⟨e00, e01, e10, e11, e20, e21, e30, e31, e40, e41⟩ := idx_facts t
  unfold iblk1
  rw [View.read_apply]
  show V c main_v15 _ = V c main_v15 _
  refine congrArg (V c main_v15) ?_
  funext a; apply Fin.ext
  match a with
  | ⟨0, _⟩ => show win1_3.index t (0 : Fin 2) * 128 + 1 * (b : ℕ) = (b : ℕ); rw [e30]; omega
  | ⟨1, _⟩ => show win1_3.index t (1 : Fin 2) * 1 + 1 * (0 : ℕ) = (0 : ℕ); rw [e31]

/-- The age block at point `t` is read where the output block is written. -/
theorem iblk_age (c : Dev nD) (t : Fin cfg1.N) (j1 : Fin 16384) :
    iblk1 V c 2 t (ix2 (0 : Fin 1) j1) = V c main_v18 (((cfg1.win 4).blk t).view.emb (ix2 (0 : Fin 1) j1)) := by
  obtain ⟨e00, e01, e10, e11, e20, e21, e30, e31, e40, e41⟩ := idx_facts t
  unfold iblk1
  rw [View.read_apply]
  show V c main_v18 _ = V c main_v18 _
  refine congrArg (V c main_v18) ?_
  funext a; apply Fin.ext
  match a with
  | ⟨0, _⟩ => show win1_2.index t (0 : Fin 2) * 1 + 1 * (0 : ℕ) = win1_4.index t (0 : Fin 2) * 1 + 1 * (0 : ℕ); rw [e20, e40]
  | ⟨1, _⟩ => show win1_2.index t (1 : Fin 2) * 16384 + 1 * (j1 : ℕ) = win1_4.index t (1 : Fin 2) * 16384 + 1 * (j1 : ℕ); rw [e21, e41]

/-- Row `j1` of the key block at point `t` is the key row whose number is the output block's column there. -/
theorem iblk_keys (c : Dev nD) (t : Fin cfg1.N) (j1 : Fin 16384) (k : Fin 128) :
    iblk1 V c 1 t (ix2 j1 k) = V c main_arg1 (ix2 (((cfg1.win 4).blk t).view.emb (ix2 (0 : Fin 1) j1) 1) k) := by
  obtain ⟨e00, e01, e10, e11, e20, e21, e30, e31, e40, e41⟩ := idx_facts t
  unfold iblk1
  rw [View.read_apply]
  show V c main_arg1 _ = V c main_arg1 _
  refine congrArg (V c main_arg1) ?_
  funext a; apply Fin.ext
  match a with
  | ⟨0, _⟩ => show win1_1.index t (0 : Fin 2) * 16384 + 1 * (j1 : ℕ) = win1_4.index t (1 : Fin 2) * 16384 + 1 * (j1 : ℕ); rw [e10, e41]
  | ⟨1, _⟩ => show win1_1.index t (1 : Fin 2) * 128 + 1 * (k : ℕ) = (k : ℕ); rw [e11]; omega
/-- What point `t` writes back is block `t` of `ageSpec` of the arrays the region finds. -/
theorem flushed_eq (c : Dev nD) (t : Fin cfg1.N) :
    (dat1 V c).flushed 4 t
      = ((cfg1.win 4).blk t).view.read (Elt Ideal) (ageSpec (V c main_v4) (V c main_arg1) (V c main_v18) (V c main_v15)) := by
  show (cfg1.win 4).cut (grid1.coords t) ((dat1 V c).after 4 t) = _
  rw [after1_4]
  unfold out1_4
  rw [View.canon_unit_zero hz]
  simp only [View.ld_unit_zero (S := S128x128) hz, View.ld_unit_zero (S := S16384x128) hz,
    View.ld_unit_zero (S := S1x16384) hz, View.ld_unit_zero (S := S128x1) hz]
  obtain ⟨e00, e01, e10, e11, e20, e21, e30, e31, e40, e41⟩ := idx_facts t
  funext j
  obtain ⟨j0, j1, rfl⟩ : ∃ (a : Fin 1) (b : Fin 16384), j = (ix2 a b : S1x16384.Idx) := ⟨j 0, j 1, eq_ix2 (n0 := 1) (n1 := 16384) j⟩
  obtain rfl : j0 = 0 := Subsingleton.elim _ _
  show k1_pay1 (F := Ideal) (iblk1 V c 0 t) (iblk1 V c 1 t) (iblk1 V c 3 t) (iblk1 V c 2 t) (ix2 (0 : Fin 1) j1)
    = ageSpec (V c main_v4) (V c main_arg1) (V c main_v18) (V c main_v15) (((cfg1.win 4).blk t).view.emb (ix2 (0 : Fin 1) j1))
  rw [pay_apply]
  unfold ageSpec
  simp only [iblk_ns, iblk_l, iblk_age, iblk_keys]

/-- An index of the output array is in point `t`'s block iff each coordinate is in the block's range on its axis. -/
theorem mem_blk (t : Fin cfg1.N) (i : S1x1048576.Idx) :
    i ∈ ((cfg1.win 4).blk t).view.set ↔ ∀ a : Fin 2, win1_4.index t a * S1x16384.size a ≤ (i a).val ∧ (i a).val < win1_4.index t a * S1x16384.size a + S1x16384.size a := by
  show i ∈ ((View.whole main_v19).slice (win1_4.rect t)).set ↔ _
  rw [View.set_slice_whole, Rect.mem_set_unit]
  exact Iff.rfl

/-- The array the region leaves in the output window: every column `n` is in the block of point `n / 16384`, and
    every point writes its block back, so the array is `ageSpec` of the arrays the region finds. -/
theorem age_final (c : Dev nD) :
    (dat1 V c).arrAt 4 cfg1.N = ageSpec (V c main_v4) (V c main_arg1) (V c main_v18) (V c main_v15) :=
  (dat1 V c).arrAt_eq_of_cover 4 _ (fun t _ => flushed_eq V c t) fun i => by
    have hi0 : (i 0).val < 1 := (i 0).isLt
    have hi1 : (i 1).val < 1048576 := (i 1).isLt
    have hN : cfg1.N = 64 := N_1
    obtain ⟨t, ht⟩ : ∃ t : Fin cfg1.N, t.val = (i 1).val / 16384 := ⟨⟨(i 1).val / 16384, by rw [hN]; omega⟩, rfl⟩
    obtain ⟨e00, e01, e10, e11, e20, e21, e30, e31, e40, e41⟩ := idx_facts t
    refine ⟨t, flush1_4 t, ?_⟩
    rw [mem_blk]
    intro a
    match a with
    | ⟨0, _⟩ =>
      show win1_4.index t (0 : Fin 2) * 1 ≤ (i 0).val ∧ (i 0).val < win1_4.index t (0 : Fin 2) * 1 + 1
      rw [e40]; omega
    | ⟨1, _⟩ =>
      show win1_4.index t (1 : Fin 2) * 16384 ≤ (i 1).val ∧ (i 1).val < win1_4.index t (1 : Fin 2) * 16384 + 16384
      rw [e41, ht]; omega
end Region

end Cert.KernelIdeal.Hand.Age
end
-- ==== Proof.IdealStatsMath.lean ====
import proofs.«157376_j6725918785543_2_alg».proof.Proof.Gen.KernelIdeal.Skeleton
import proofs.«157376_j6725918785543_2_alg».proof.Proof.TileSpec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The named reciprocal of the temperature denotes, at the ideal instance, the exact rational the statement's table gives it. -/
theorem inv_temp_eq : Named.named (F := Ideal) κ "inv_temp" (φ := .f32) 0x41A0A974#32 = Cert.Spec.cc :=
  IdealRules.named_const.ideal_named_scalar _ _ _ _ rfl

theorem mm1_lhs0 (i : S128x8192.Idx) (q : dot_S128x128_S128x8192_S128x8192_1_0_0_1_n_n.contr.Idx) : (dot_S128x128_S128x8192_S128x8192_1_0_0_1_n_n.lhsIdx i q 0).val = (i 0).val := by
  unfold DotDims.lhsIdx
  rw [dif_neg (show ¬(0 : Fin S128x128.rank) ∈ dot_S128x128_S128x8192_S128x8192_1_0_0_1_n_n.lhsBatch by decide), dif_pos (show (0 : Fin S128x128.rank) ∈ dot_S128x128_S128x8192_S128x8192_1_0_0_1_n_n.lhsNonContracting by decide)]
  rfl
theorem mm1_lhs1 (i : S128x8192.Idx) (q : dot_S128x128_S128x8192_S128x8192_1_0_0_1_n_n.contr.Idx) : (dot_S128x128_S128x8192_S128x8192_1_0_0_1_n_n.lhsIdx i q 1).val = (q ⟨0, by decide⟩).val :=
  dot_S128x128_S128x8192_S128x8192_1_0_0_1_n_n.lhsIdx_val_of_single rfl i q
theorem mm1_rhs0 (i : S128x8192.Idx) (q : dot_S128x128_S128x8192_S128x8192_1_0_0_1_n_n.contr.Idx) : (dot_S128x128_S128x8192_S128x8192_1_0_0_1_n_n.rhsIdx i q 0).val = (q ⟨0, by decide⟩).val :=
  dot_S128x128_S128x8192_S128x8192_1_0_0_1_n_n.rhsIdx_val_of_single rfl i q
theorem mm1_rhs1 (i : S128x8192.Idx) (q : dot_S128x128_S128x8192_S128x8192_1_0_0_1_n_n.contr.Idx) : (dot_S128x128_S128x8192_S128x8192_1_0_0_1_n_n.rhsIdx i q 1).val = (i 1).val := by
  unfold DotDims.rhsIdx
  rw [dif_neg (show ¬(1 : Fin S128x8192.rank) ∈ dot_S128x128_S128x8192_S128x8192_1_0_0_1_n_n.rhsBatch by decide), dif_pos (show (1 : Fin S128x8192.rank) ∈ dot_S128x128_S128x8192_S128x8192_1_0_0_1_n_n.rhsNonContracting by decide)]
  rfl

/-- The first product of the body at an index: a row of the left operand against a column of the right one. -/
theorem mm1_apply (lhs : FVec Ideal S128x128 .bf16) (rhs : FVec Ideal S128x8192 .bf16) (b : Fin 128) (j : Fin 8192) :
    FloatOps.matmul (F := Ideal) dot_S128x128_S128x8192_S128x8192_1_0_0_1_n_n none lhs rhs (constant S128x8192 .f32 0x00000000#32) (ix2 b j)
      = ∑ k : Fin 128, lhs (ix2 b k) * rhs (ix2 k j) := by
  rw [Ideal.matmul_constant_zero_apply,
    ← Equiv.sum_comp (contrEquiv1 dot_S128x128_S128x8192_S128x8192_1_0_0_1_n_n 128 rfl rfl).symm]
  refine Finset.sum_congr rfl fun k _ => ?_
  have hk := contrEquiv1_symm_val dot_S128x128_S128x8192_S128x8192_1_0_0_1_n_n 128 rfl rfl k
  have el : dot_S128x128_S128x8192_S128x8192_1_0_0_1_n_n.lhsIdx (ix2 b j) ((contrEquiv1 dot_S128x128_S128x8192_S128x8192_1_0_0_1_n_n 128 rfl rfl).symm k) = ix2 b k := funext fun a => Fin.ext (by
    match a with
    | ⟨0, _⟩ => exact mm1_lhs0 _ _
    | ⟨1, _⟩ => exact (mm1_lhs1 _ _).trans hk)
  have er : dot_S128x128_S128x8192_S128x8192_1_0_0_1_n_n.rhsIdx (ix2 b j) ((contrEquiv1 dot_S128x128_S128x8192_S128x8192_1_0_0_1_n_n 128 rfl rfl).symm k) = ix2 k j := funext fun a => Fin.ext (by
    match a with
    | ⟨0, _⟩ => exact (mm1_rhs0 _ _).trans hk
    | ⟨1, _⟩ => exact mm1_rhs1 _ _)
  rw [el, er]

/-- The unnormalised weights of one tile: entry (b, j) is exp(⟨state row b, key row j⟩ · c − c). -/
theorem pay5_apply (v3 : Vec Ideal S128x128 .f32) (v6 : Vec Ideal S8192x128 .f32) (b : Fin 128) (j : Fin 8192) :
    k0_pay5 (F := Ideal) v3 v6 (ix2 b j)
      = Ideal.exp ((∑ k : Fin 128, v3 (ix2 b k) * v6 (ix2 j k)) * Cert.Spec.cc - Cert.Spec.cc) := by
  unfold k0_pay5
  simp only [shapeCast_self]
  refine (congrArg (fun z : EReal => Ideal.exp (z * _ - _)) (mm1_apply _ _ b j)).trans ?_
  rw [inv_temp_eq]
  congr 2
  congr 1
  refine Finset.sum_congr rfl fun k _ => ?_
  congr 1
  exact transpose_apply _ _ _ (ix2 k j) (ix2 j k) (fun a => by match a with | ⟨0, _⟩ => rfl | ⟨1, _⟩ => rfl)

theorem mm2_lhs0 (i : S128x128.Idx) (q : dot_S128x8192_S8192x128_S128x128_1_0_0_1_n_n.contr.Idx) : (dot_S128x8192_S8192x128_S128x128_1_0_0_1_n_n.lhsIdx i q 0).val = (i 0).val := by
  unfold DotDims.lhsIdx
  rw [dif_neg (show ¬(0 : Fin S128x8192.rank) ∈ dot_S128x8192_S8192x128_S128x128_1_0_0_1_n_n.lhsBatch by decide), dif_pos (show (0 : Fin S128x8192.rank) ∈ dot_S128x8192_S8192x128_S128x128_1_0_0_1_n_n.lhsNonContracting by decide)]
  rfl
theorem mm2_lhs1 (i : S128x128.Idx) (q : dot_S128x8192_S8192x128_S128x128_1_0_0_1_n_n.contr.Idx) : (dot_S128x8192_S8192x128_S128x128_1_0_0_1_n_n.lhsIdx i q 1).val = (q ⟨0, by decide⟩).val :=
  dot_S128x8192_S8192x128_S128x128_1_0_0_1_n_n.lhsIdx_val_of_single rfl i q
theorem mm2_rhs0 (i : S128x128.Idx) (q : dot_S128x8192_S8192x128_S128x128_1_0_0_1_n_n.contr.Idx) : (dot_S128x8192_S8192x128_S128x128_1_0_0_1_n_n.rhsIdx i q 0).val = (q ⟨0, by decide⟩).val :=
  dot_S128x8192_S8192x128_S128x128_1_0_0_1_n_n.rhsIdx_val_of_single rfl i q
theorem mm2_rhs1 (i : S128x128.Idx) (q : dot_S128x8192_S8192x128_S128x128_1_0_0_1_n_n.contr.Idx) : (dot_S128x8192_S8192x128_S128x128_1_0_0_1_n_n.rhsIdx i q 1).val = (i 1).val := by
  unfold DotDims.rhsIdx
  rw [dif_neg (show ¬(1 : Fin S8192x128.rank) ∈ dot_S128x8192_S8192x128_S128x128_1_0_0_1_n_n.rhsBatch by decide), dif_pos (show (1 : Fin S8192x128.rank) ∈ dot_S128x8192_S8192x128_S128x128_1_0_0_1_n_n.rhsNonContracting by decide)]
  rfl

/-- The second product of the body at an index: a row of the weights against a column of the value block. -/
theorem mm2_apply (lhs : FVec Ideal S128x8192 .bf16) (rhs : FVec Ideal S8192x128 .bf16) (b d : Fin 128) :
    FloatOps.matmul (F := Ideal) dot_S128x8192_S8192x128_S128x128_1_0_0_1_n_n none lhs rhs (constant S128x128 .f32 0x00000000#32) (ix2 b d)
      = ∑ j : Fin 8192, lhs (ix2 b j) * rhs (ix2 j d) := by
  rw [Ideal.matmul_constant_zero_apply,
    ← Equiv.sum_comp (contrEquiv1 dot_S128x8192_S8192x128_S128x128_1_0_0_1_n_n 8192 rfl rfl).symm]
  refine Finset.sum_congr rfl fun k _ => ?_
  have hk := contrEquiv1_symm_val dot_S128x8192_S8192x128_S128x128_1_0_0_1_n_n 8192 rfl rfl k
  have el : dot_S128x8192_S8192x128_S128x128_1_0_0_1_n_n.lhsIdx (ix2 b d) ((contrEquiv1 dot_S128x8192_S8192x128_S128x128_1_0_0_1_n_n 8192 rfl rfl).symm k) = ix2 b k := funext fun a => Fin.ext (by
    match a with
    | ⟨0, _⟩ => exact mm2_lhs0 _ _
    | ⟨1, _⟩ => exact (mm2_lhs1 _ _).trans hk)
  have er : dot_S128x8192_S8192x128_S128x128_1_0_0_1_n_n.rhsIdx (ix2 b d) ((contrEquiv1 dot_S128x8192_S8192x128_S128x128_1_0_0_1_n_n 8192 rfl rfl).symm k) = ix2 k d := funext fun a => Fin.ext (by
    match a with
    | ⟨0, _⟩ => exact (mm2_rhs0 _ _).trans hk
    | ⟨1, _⟩ => exact mm2_rhs1 _ _)
  rw [el, er]

/-- The accumulated weighted sum after one tile: entry (b, d) is the carried entry plus the tile's weights against the value block's column d. -/
theorem pay7_apply (v3 : Vec Ideal S128x128 .f32) (v6 v22 : Vec Ideal S8192x128 .f32) (v26 : Vec Ideal S128x128 .f32) (b d : Fin 128) :
    k0_pay7 (F := Ideal) v3 v6 v22 v26 (ix2 b d)
      = v26 (ix2 b d) + ∑ j : Fin 8192, k0_pay5 (F := Ideal) v3 v6 (ix2 b j) * v22 (ix2 j d) := by
  unfold k0_pay7
  simp only [shapeCast_self]
  exact congrArg (fun z : EReal => v26 (ix2 b d) + z) (mm2_apply _ _ b d)

/-- The accumulated denominator after one tile: entry b is the carried entry plus the tile's row sum of weights. -/
theorem pay6_apply (v3 : Vec Ideal S128x128 .f32) (v6 : Vec Ideal S8192x128 .f32) (v15 : Vec Ideal S128x1 .f32) (b : Fin 128) :
    k0_pay6 (F := Ideal) v3 v6 v15 (ix2 b (0 : Fin 1))
      = v15 (ix2 b (0 : Fin 1)) + ∑ j : Fin 8192, k0_pay5 (F := Ideal) v3 v6 (ix2 b j) := by
  unfold k0_pay6
  simp only [shapeCast_self]
  refine congrArg (fun z : EReal => v15 (ix2 b (0 : Fin 1)) + z) ?_
  refine (shapeCast_apply _ shapeCasts_S128_S128x1 (ix2 b (0 : Fin 1)) (ix1 b) ?_).trans ?_
  · rw [Shape.rowMajor_val_one, Shape.rowMajor_val_two]
    show (b : ℕ) = (b : ℕ) * 1 + ((0 : Fin 1) : ℕ)
    simp
  · refine (Ideal.multiReduction_add_single (k0_pay5 (F := Ideal) v3 v6) 0x00000000#32 reduces_S128x8192_S128 (.inl rfl) rfl (ix1 b)).trans ?_
    refine Finset.sum_congr rfl fun j _ => ?_
    refine congrArg _ (funext fun a => Fin.ext ?_)
    match a with
    | ⟨0, _⟩ => rfl
    | ⟨1, _⟩ => rfl

end Cert.KernelIdeal.Hand

end
-- ==== Proof.IdealStatsClosed.lean ====
import proofs.«157376_j6725918785543_2_alg».proof.Proof.IdealStatsOuts
import proofs.«157376_j6725918785543_2_alg».proof.Proof.IdealStatsMath
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators
open Idealize.ShloMosaic.Pipeline (Dat)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves, as values

The body's stores are whole-buffer stores, so what a buffer holds afterwards is the last store's payload; the loads
that payload reads are whole-buffer loads of the inputs' blocks and of the accumulators as the point found them. -/

/-- A middle tile leaves, in the weighted-sum accumulator holding `xs0`, `xs0` plus the tile's contribution. -/
theorem sacc_B (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : ¬cond0_0 i) (hc1 : ¬cond0_1 i) (x0 : Vec F S128x128 .f32) (x1 x2 : Vec F S8192x128 .f32) (xs0 : Vec F S128x128 .f32) (xs1 : Vec F S128x1 .f32) :
    sout0_B_0 c i a2 h2 a3 h3 a4 h4 a5 h5 a6 h6 a7 h7 a8 h8 hc0 hc1 x0 x1 x2 xs0 xs1 = k0_pay7 x0 x1 x2 xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  rw [View.canon_unit_zero hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-- A middle tile leaves, in the row-sum accumulator holding `xs1`, `xs1` plus the tile's row sums. -/
theorem sl_B (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : ¬cond0_0 i) (hc1 : ¬cond0_1 i) (x0 : Vec F S128x128 .f32) (x1 x2 : Vec F S8192x128 .f32) (xs0 : Vec F S128x128 .f32) (xs1 : Vec F S128x1 .f32) :
    sout0_B_1 c i a2 h2 a3 h3 a4 h4 a5 h5 a6 h6 a7 h7 a8 h8 hc0 hc1 x0 x1 x2 xs0 xs1 = k0_pay6 x0 x1 xs1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  rw [View.canon_unit_zero hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-- The last tile of a half accumulates like a middle one … -/
theorem sacc_C (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : ¬cond0_0 i) (hc1 : cond0_1 i) (x0 : Vec F S128x128 .f32) (x1 x2 : Vec F S8192x128 .f32) (xs0 : Vec F S128x128 .f32) (xs1 : Vec F S128x1 .f32) :
    sout0_C_0 c i a2 h2 a3 h3 a4 h4 a5 h5 a6 h6 a7 h7 a8 h8 hc0 hc1 x0 x1 x2 xs0 xs1 = k0_pay7 x0 x1 x2 xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

theorem sl_C (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : ¬cond0_0 i) (hc1 : cond0_1 i) (x0 : Vec F S128x128 .f32) (x1 x2 : Vec F S8192x128 .f32) (xs0 : Vec F S128x128 .f32) (xs1 : Vec F S128x1 .f32) :
    sout0_C_1 c i a2 h2 a3 h3 a4 h4 a5 h5 a6 h6 a7 h7 a8 h8 hc0 hc1 x0 x1 x2 xs0 xs1 = k0_pay6 x0 x1 xs1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-- … and then copies the accumulated weighted sum out, -/
theorem out3_C (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : ¬cond0_0 i) (hc1 : cond0_1 i) (x0 : Vec F S128x128 .f32) (x1 x2 : Vec F S8192x128 .f32) (xs0 : Vec F S128x128 .f32) (xs1 : Vec F S128x1 .f32) :
    out0_C_3 c i a2 h2 a3 h3 a4 h4 a5 h5 a6 h6 a7 h7 a8 h8 hc0 hc1 x0 x1 x2 xs0 xs1 = k0_pay1 (k0_pay7 x0 x1 x2 xs0) := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz3, View.readCov_unit_zero (S := S128x128) _ hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-- The first tile of a half zeroes the accumulator and leaves the tile's contribution. -/
theorem sacc_A (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : cond0_0 i) (hc1 : ¬cond0_1 i) (x0 : Vec F S128x128 .f32) (x1 x2 : Vec F S8192x128 .f32) :
    sout0_A_0 c i a2 h2 a3 h3 a4 h4 a5 h5 a6 h6 a7 h7 a8 h8 hc0 hc1 x0 x1 x2 = k0_pay7 x0 x1 x2 k0_pay3 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S128x128) hz2, View.readCov_unit_zero (S := S128x128) _ hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-- and likewise the row sums: zeroed, then the tile's row sums. -/
theorem sl_A (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : cond0_0 i) (hc1 : ¬cond0_1 i) (x0 : Vec F S128x128 .f32) (x1 x2 : Vec F S8192x128 .f32) :
    sout0_A_1 c i a2 h2 a3 h3 a4 h4 a5 h5 a6 h6 a7 h7 a8 h8 hc0 hc1 x0 x1 x2 = k0_pay6 x0 x1 k0_pay4 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S128x1) hz2, View.readCov_unit_zero (S := S128x1) _ hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-- and the accumulated row sums. -/
theorem out4_C (c : Dev nD) (i : grid0.Coords) (a2 : Memref sig .tc .vmem S128x128 .f32) (h2 : a2.IsWhole) (a3 : Memref sig .tc .vmem S8192x128 .f32) (h3 : a3.IsWhole) (a4 : Memref sig .tc .vmem S8192x128 .f32) (h4 : a4.IsWhole) (a5 : Memref sig .tc .vmem S1x128x128 .f32) (h5 : a5.IsWhole) (a6 : Memref sig .tc .vmem S1x128x1 .f32) (h6 : a6.IsWhole) (a7 : Memref sig .tc .vmem S128x128 .f32) (h7 : a7.IsWhole) (a8 : Memref sig .tc .vmem S128x1 .f32) (h8 : a8.IsWhole) (hc0 : ¬cond0_0 i) (hc1 : cond0_1 i) (x0 : Vec F S128x128 .f32) (x1 x2 : Vec F S8192x128 .f32) (xs0 : Vec F S128x128 .f32) (xs1 : Vec F S128x1 .f32) :
    out0_C_4 c i a2 h2 a3 h3 a4 h4 a5 h5 a6 h6 a7 h7 a8 h8 hc0 hc1 x0 x1 x2 xs0 xs1 = k0_pay2 (k0_pay6 x0 x1 xs1) := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz3, View.readCov_unit_zero (S := S128x1) _ hz2]
  simp only [View.readAt_eq_ld, h2.read_unread, h3.read_unread, h4.read_unread, h5.read_unread, h6.read_unread, h7.read_unread, h8.read_unread, View.ld_unit_zero (S := S128x128) hz2, View.ld_unit_zero (S := S8192x128) hz2, View.ld_unit_zero (S := S128x1) hz2]

/-! ## The input blocks of a point, read at an index

Point `t` of the grid stages the whole state, key rows `8192 t … 8192 t + 8191` and the same value rows. -/

section Blocks
variable (V : (c : Dev nD) → (b : Ref sig .tc) → Buf (Elt F) ((c : Thread nD τ).loc b))

theorem idx_state : ∀ t : Fin cfg0.N, win0_0.index t 0 = 0 ∧ win0_0.index t 1 = 0 :=
  (by decide +kernel : ∀ t : Fin grid0.N, win0_0.index t 0 = 0 ∧ win0_0.index t 1 = 0)
theorem idx_keys : ∀ t : Fin cfg0.N, win0_1.index t 0 = t.val ∧ win0_1.index t 1 = 0 :=
  (by decide +kernel : ∀ t : Fin grid0.N, win0_1.index t 0 = t.val ∧ win0_1.index t 1 = 0)
theorem idx_values : ∀ t : Fin cfg0.N, win0_2.index t 0 = t.val ∧ win0_2.index t 1 = 0 :=
  (by decide +kernel : ∀ t : Fin grid0.N, win0_2.index t 0 = t.val ∧ win0_2.index t 1 = 0)

theorem iblk_state (c : Dev nD) (t : Fin cfg0.N) (b k : Fin 128) :
    (iblk0 V c 0 t : Vec F S128x128 .f32) (ix2 b k) = (V c main_v4 : S128x128.Idx → Elt F .f32) (ix2 b k) := by
  unfold iblk0
  rw [View.read_apply]
  show V c main_v4 _ = V c main_v4 _
  congr 1
  funext a
  apply Fin.ext
  match a with
  | ⟨0, _⟩ => show win0_0.index t 0 * 128 + 1 * b.val = b.val; rw [(idx_state t).1]; omega
  | ⟨1, _⟩ => show win0_0.index t 1 * 128 + 1 * k.val = k.val; rw [(idx_state t).2]; omega

theorem iblk_keys (c : Dev nD) (t : Fin cfg0.N) (r : Fin 8192) (k : Fin 128) (hr : t.val * 8192 + r.val < 1048576) :
    (iblk0 V c 1 t : Vec F S8192x128 .f32) (ix2 r k) = (V c main_arg1 : S1048576x128.Idx → Elt F .f32) (ix2 ⟨t.val * 8192 + r.val, hr⟩ k) := by
  unfold iblk0
  rw [View.read_apply]
  show V c main_arg1 _ = V c main_arg1 _
  congr 1
  funext a
  apply Fin.ext
  match a with
  | ⟨0, _⟩ => show win0_1.index t 0 * 8192 + 1 * r.val = t.val * 8192 + r.val; rw [(idx_keys t).1]; omega
  | ⟨1, _⟩ => show win0_1.index t 1 * 128 + 1 * k.val = k.val; rw [(idx_keys t).2]; omega

theorem iblk_values (c : Dev nD) (t : Fin cfg0.N) (r : Fin 8192) (d : Fin 128) (hr : t.val * 8192 + r.val < 1048576) :
    (iblk0 V c 2 t : Vec F S8192x128 .f32) (ix2 r d) = (V c main_arg2 : S1048576x128.Idx → Elt F .f32) (ix2 ⟨t.val * 8192 + r.val, hr⟩ d) := by
  unfold iblk0
  rw [View.read_apply]
  show V c main_arg2 _ = V c main_arg2 _
  congr 1
  funext a
  apply Fin.ext
  match a with
  | ⟨0, _⟩ => show win0_2.index t 0 * 8192 + 1 * r.val = t.val * 8192 + r.val; rw [(idx_values t).1]; omega
  | ⟨1, _⟩ => show win0_2.index t 1 * 128 + 1 * d.val = d.val; rw [(idx_values t).2]; omega

end Blocks

/-! ## The accumulators after each point, in closed form (at the ideal instance) -/

section Closed

variable (V : (c : Dev nD) → (b : Ref sig .tc) → Buf (Elt Ideal) ((c : Thread nD τ).loc b)) (c : Dev nD)

/-- The normalised state, the keys and the values as the first region finds them. -/
abbrev nsV : Cert.Spec.S128x128.Idx → EReal := V c main_v4
abbrev keysV : Cert.Spec.SNx128.Idx → EReal := V c main_arg1
abbrev valsV : Cert.Spec.SNx128.Idx → EReal := V c main_arg2

theorem N0 : cfg0.N = 128 := N_0

/-- Tile `i` of half `h` as a point of the grid. -/
def pt (h : Fin 2) (i : ℕ) (hi : i < 64) : Fin cfg0.N := ⟨64 * h.val + i, by rw [N0]; have := h.isLt; omega⟩

theorem outsAt0_congr {n n' : ℕ} (e : n = n') (hn : n < cfg0.N) (hn' : n' < cfg0.N) :
    outsAt0 V c n hn = outsAt0 V c n' hn' := by subst e; rfl

/-- The weights of a point's tile are the specification's weights of its key rows. -/
theorem tile_w (h : Fin 2) (i : ℕ) (hi : i < 64) (b : Fin 128) (r : Fin 8192) :
    k0_pay5 (F := Ideal) (iblk0 V c 0 (pt h i hi)) (iblk0 V c 1 (pt h i hi)) (ix2 b r)
      = Cert.Spec.w (nsV V c) (keysV V c) b (Cert.Spec.row h ⟨i, hi⟩ r) := by
  rw [pay5_apply]
  unfold Cert.Spec.w Cert.Spec.score
  congr 3
  refine Finset.sum_congr rfl fun k _ => ?_
  rw [iblk_state V c (pt h i hi) b k, iblk_keys V c (pt h i hi) r k (by show (64 * h.val + i) * 8192 + r.val < 1048576; have := h.isLt; have := r.isLt; omega)]
  rfl

/-- The weighted sum accumulated over tiles `0 … i` of half `h`. -/
def accP (h : Fin 2) (i : ℕ) (hi : i < 64) : Vec Ideal S128x128 .f32 := fun j =>
  ∑ s : Fin (i + 1), ∑ r : Fin 8192,
    Cert.Spec.w (nsV V c) (keysV V c) (j 0) (Cert.Spec.row h ⟨s.val, by have := s.isLt; omega⟩ r)
      * valsV V c (ix2 (Cert.Spec.row h ⟨s.val, by have := s.isLt; omega⟩ r) (j 1))

/-- The row sums accumulated over tiles `0 … i` of half `h`. -/
def lP (h : Fin 2) (i : ℕ) (hi : i < 64) : Vec Ideal S128x1 .f32 := fun j =>
  ∑ s : Fin (i + 1), ∑ r : Fin 8192,
    Cert.Spec.w (nsV V c) (keysV V c) (j 0) (Cert.Spec.row h ⟨s.val, by have := s.isLt; omega⟩ r)

/-- One tile's contribution to the weighted sum. -/
theorem tile_acc (h : Fin 2) (i : ℕ) (hi : i < 64) (b d : Fin 128) :
    (∑ r : Fin 8192, k0_pay5 (F := Ideal) (iblk0 V c 0 (pt h i hi)) (iblk0 V c 1 (pt h i hi)) (ix2 b r)
        * (iblk0 V c 2 (pt h i hi) : Vec Ideal S8192x128 .f32) (ix2 r d))
      = ∑ r : Fin 8192, Cert.Spec.w (nsV V c) (keysV V c) b (Cert.Spec.row h ⟨i, hi⟩ r)
          * valsV V c (ix2 (Cert.Spec.row h ⟨i, hi⟩ r) d) := by
  refine Finset.sum_congr rfl fun r _ => ?_
  rw [tile_w V c h i hi b r, iblk_values V c (pt h i hi) r d (by show (64 * h.val + i) * 8192 + r.val < 1048576; have := h.isLt; have := r.isLt; omega)]
  rfl

theorem tile_l (h : Fin 2) (i : ℕ) (hi : i < 64) (b : Fin 128) :
    (∑ r : Fin 8192, k0_pay5 (F := Ideal) (iblk0 V c 0 (pt h i hi)) (iblk0 V c 1 (pt h i hi)) (ix2 b r))
      = ∑ r : Fin 8192, Cert.Spec.w (nsV V c) (keysV V c) b (Cert.Spec.row h ⟨i, hi⟩ r) :=
  Finset.sum_congr rfl fun r _ => tile_w V c h i hi b r

theorem pay3_zero (j : S128x128.Idx) : k0_pay3 (F := Ideal) j = 0 := by
  unfold k0_pay3
  simp only [shapeCast_self]
  exact Ideal.ofBits_zero_f32

theorem pay4_zero (j : S128x1.Idx) : k0_pay4 (F := Ideal) j = 0 := by
  unfold k0_pay4
  simp only [shapeCast_self]
  exact Ideal.ofBits_zero_f32

/-- THE CLOSED FORM: after tile `i` of half `h` the two accumulators hold the sums over tiles `0 … i` of that half. -/
theorem closed (h : Fin 2) : ∀ (i : ℕ) (hi : i < 64),
    (outsAt0 V c (pt h i hi).val (pt h i hi).isLt).2.2.1 = accP V c h i hi
      ∧ (outsAt0 V c (pt h i hi).val (pt h i hi).isLt).2.2.2 = lP V c h i hi
  | 0, hi => by
    have h0 : (pt h 0 hi).val % 64 = 0 := by show (64 * h.val + 0) % 64 = 0; omega
    have h1 : ¬(pt h 0 hi).val % 64 = 63 := by rw [h0]; decide
    rw [outsAt0_A V c (pt h 0 hi) h0 h1]
    refine ⟨?_, ?_⟩
    · dsimp only [outsA0]
      rw [sacc_A]
      funext j
      obtain ⟨b, d, rfl⟩ : ∃ (b d : Fin 128), j = ix2 b d := ⟨j 0, j 1, eq_ix2 j⟩
      rw [pay7_apply, pay3_zero, zero_add, tile_acc V c h 0 hi b d]
      show _ = ∑ s : Fin 1, _
      rw [Fin.sum_univ_one]
      rfl
    · dsimp only [outsA0]
      rw [sl_A]
      funext j
      obtain ⟨b, z, rfl⟩ : ∃ (b : Fin 128) (z : Fin 1), j = ix2 b z := ⟨j 0, j 1, eq_ix2 j⟩
      obtain rfl : z = 0 := Subsingleton.elim _ _
      rw [pay6_apply, pay4_zero, zero_add, tile_l V c h 0 hi b]
      show _ = ∑ s : Fin 1, _
      rw [Fin.sum_univ_one]
      rfl
  | i + 1, hi => by
    have hprev := closed h i (by omega)
    have hv : (pt h (i + 1) hi).val - 1 = (pt h i (by omega)).val := by show 64 * h.val + (i + 1) - 1 = 64 * h.val + i; omega
    have e := outsAt0_congr V c hv (Nat.lt_of_le_of_lt (Nat.sub_le _ _) (pt h (i + 1) hi).isLt) (pt h i (by omega)).isLt
    have h0 : ¬(pt h (i + 1) hi).val % 64 = 0 := by show ¬(64 * h.val + (i + 1)) % 64 = 0; omega
    have stepA : ∀ (xs0 : Vec Ideal S128x128 .f32), xs0 = accP V c h i (by omega) →
        k0_pay7 (F := Ideal) (iblk0 V c 0 (pt h (i + 1) hi)) (iblk0 V c 1 (pt h (i + 1) hi)) (iblk0 V c 2 (pt h (i + 1) hi)) xs0 = accP V c h (i + 1) hi := by
      intro xs0 hxs; subst hxs
      funext j
      obtain ⟨b, d, rfl⟩ : ∃ (b d : Fin 128), j = ix2 b d := ⟨j 0, j 1, eq_ix2 j⟩
      rw [pay7_apply, tile_acc V c h (i + 1) hi b d]
      show _ = ∑ s : Fin (i + 1 + 1), _
      rw [Fin.sum_univ_castSucc (n := i + 1)]
      rfl
    have stepL : ∀ (xs1 : Vec Ideal S128x1 .f32), xs1 = lP V c h i (by omega) →
        k0_pay6 (F := Ideal) (iblk0 V c 0 (pt h (i + 1) hi)) (iblk0 V c 1 (pt h (i + 1) hi)) xs1 = lP V c h (i + 1) hi := by
      intro xs1 hxs; subst hxs
      funext j
      obtain ⟨b, z, rfl⟩ : ∃ (b : Fin 128) (z : Fin 1), j = ix2 b z := ⟨j 0, j 1, eq_ix2 j⟩
      obtain rfl : z = 0 := Subsingleton.elim _ _
      rw [pay6_apply, tile_l V c h (i + 1) hi b]
      show _ = ∑ s : Fin (i + 1 + 1), _
      rw [Fin.sum_univ_castSucc (n := i + 1)]
      rfl
    by_cases h1 : (pt h (i + 1) hi).val % 64 = 63
    · rw [outsAt0_C V c (pt h (i + 1) hi) h0 h1, e]
      refine ⟨?_, ?_⟩
      · dsimp only [outsC0]
        rw [sacc_C]
        exact stepA _ hprev.1
      · dsimp only [outsC0]
        rw [sl_C]
        exact stepL _ hprev.2
    · rw [outsAt0_B V c (pt h (i + 1) hi) h0 h1, e]
      refine ⟨?_, ?_⟩
      · dsimp only [outsB0]
        rw [sacc_B]
        exact stepA _ hprev.1
      · dsimp only [outsB0]
        rw [sl_B]
        exact stepL _ hprev.2

end Closed

end Cert.KernelIdeal.Hand
end
-- ==== Proof.IdealStatsFinal.lean ====
import proofs.«157376_j6725918785543_2_alg».proof.Proof.IdealStatsClosed
import proofs.«157376_j6725918785543_2_alg».proof.Proof.IdealStatsMath
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators
open Idealize.ShloMosaic.Pipeline (Dat)

variable {F : FTy → Type} [FloatOps F] [Named F]

/-! ## The two result arrays of the first region -/

section Final

variable (V : (c : Dev nD) → (b : Ref sig .tc) → Buf (Elt Ideal) ((c : Thread nD τ).loc b)) (c : Dev nD)

theorem idx_out3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)
theorem idx_out4 : ∀ t : Fin cfg0.N, win0_4.index t 0 = t.val / 64 ∧ win0_4.index t 1 = 0 ∧ win0_4.index t 2 = 0 :=
  (by decide +kernel : ∀ t : Fin grid0.N, win0_4.index t 0 = t.val / 64 ∧ win0_4.index t 1 = 0 ∧ win0_4.index t 2 = 0)
theorem xsize_out3 : ∀ t : Fin cfg0.N, win0_3.xsize (grid0.coords t) 0 = 1 ∧ win0_3.xsize (grid0.coords t) 1 = 128 ∧ win0_3.xsize (grid0.coords t) 2 = 128 :=
  (by decide +kernel : ∀ t : Fin grid0.N, win0_3.xsize (grid0.coords t) 0 = 1 ∧ win0_3.xsize (grid0.coords t) 1 = 128 ∧ win0_3.xsize (grid0.coords t) 2 = 128)
theorem xsize_out4 : ∀ t : Fin cfg0.N, win0_4.xsize (grid0.coords t) 0 = 1 ∧ win0_4.xsize (grid0.coords t) 1 = 128 ∧ win0_4.xsize (grid0.coords t) 2 = 1 :=
  (by decide +kernel : ∀ t : Fin grid0.N, win0_4.xsize (grid0.coords t) 0 = 1 ∧ win0_4.xsize (grid0.coords t) 1 = 128 ∧ win0_4.xsize (grid0.coords t) 2 = 1)

/-- The last tile of half `h` as a point of the grid. -/
abbrev lastPt (h : Fin 2) : Fin cfg0.N := pt h 63 (by decide)

theorem last_mod (h : Fin 2) : (lastPt h).val % 64 = 63 := by show (64 * h.val + 63) % 64 = 63; omega
theorem last_ne (h : Fin 2) : ¬(lastPt h).val % 64 = 0 := by rw [last_mod]; decide

/-- After the last tile of half `h` the weighted-sum output's staging buffer holds the half's accumulated sum, -/
theorem after3_last (h : Fin 2) : (dat0 V c).after 3 (lastPt h) = k0_pay1 (F := Ideal) (accP V c h 63 (by decide)) := by
  have hc := (closed V c h 63 (by decide)).1
  rw [outsAt0_C V c (lastPt h) (last_ne h) (last_mod h)] at hc
  dsimp only [outsC0] at hc
  rw [sacc_C] at hc
  rw [after0_3, outsAt0_C V c (lastPt h) (last_ne h) (last_mod h)]
  dsimp only [outsC0]
  rw [out3_C, hc]

/-- and the row-sum output's the half's accumulated row sums. -/
theorem after4_last (h : Fin 2) : (dat0 V c).after 4 (lastPt h) = k0_pay2 (F := Ideal) (lP V c h 63 (by decide)) := by
  have hc := (closed V c h 63 (by decide)).2
  rw [outsAt0_C V c (lastPt h) (last_ne h) (last_mod h)] at hc
  dsimp only [outsC0] at hc
  rw [sl_C] at hc
  rw [after0_4, outsAt0_C V c (lastPt h) (last_ne h) (last_mod h)]
  dsimp only [outsC0]
  rw [out4_C, hc]

theorem pt_of_flush (t : Fin cfg0.N) (hm : t.val % 64 = 63) : ∃ h : Fin 2, t = lastPt h := by
  have hlt : t.val < 128 := lt_of_lt_of_eq t.isLt N0
  exact ⟨⟨t.val / 64, by omega⟩, Fin.ext (by show t.val = 64 * (t.val / 64) + 63; omega)⟩

/-- What a write-back of the weighted-sum output moves is the half's block of the specification's array. -/
theorem flushed3_eq (t : Fin cfg0.N) (hf : (cfg0.win 3).flush t = true) :
    (dat0 V c).flushed 3 t = ((cfg0.win 3).blk t).view.read (Elt Ideal) (Cert.Spec.accSpec (nsV V c) (keysV V c) (valsV V c)) := by
  obtain ⟨h, rfl⟩ := pt_of_flush t ((flush0_3 t).mp hf)
  show (cfg0.win 3).cut (grid0.coords (lastPt h)) ((dat0 V c).after 3 (lastPt h)) = _
  rw [after3_last]
  funext y
  obtain ⟨z, b, d, rfl⟩ : ∃ (z : Fin 1) (b d : Fin 128), y = (ix3 z b d : S1x128x128.Idx) := ⟨y 0, y 1, y 2, eq_ix3 (n0 := 1) (n1 := 128) (n2 := 128) y⟩
  obtain rfl : z = 0 := Subsingleton.elim _ _
  have hemb : ((cfg0.win 3).blk (lastPt h)).view.emb (ix3 (0 : Fin 1) b d) = (ix3 h b d : S2x128x128.Idx) := funext fun a => Fin.ext (by
    match a with
    | ⟨0, _⟩ => show win0_3.index (lastPt h) 0 * 1 + 1 * 0 = h.val; rw [(idx_out3 _).1]; show (64 * h.val + 63) / 64 * 1 + 1 * 0 = h.val; omega
    | ⟨1, _⟩ => show win0_3.index (lastPt h) 1 * 128 + 1 * b.val = b.val; rw [(idx_out3 _).2.1]; omega
    | ⟨2, _⟩ => show win0_3.index (lastPt h) 2 * 128 + 1 * d.val = d.val; rw [(idx_out3 _).2.2]; omega)
  show k0_pay1 (F := Ideal) (accP V c h 63 (by decide)) (ix3 (0 : Fin 1) b d) = Cert.Spec.accSpec (nsV V c) (keysV V c) (valsV V c) (((cfg0.win 3).blk (lastPt h)).view.emb (ix3 (0 : Fin 1) b d))
  rw [hemb, Cert.Spec.accSpec_apply]
  unfold k0_pay1
  refine (shapeCast_apply _ shapeCasts_S128x128_S1x128x128 (ix3 (0 : Fin 1) b d) (ix2 b d) ?_).trans ?_
  · rw [Shape.rowMajor_val_two, Shape.rowMajor_val_three]
    show b.val * 128 + d.val = (0 * 128 + b.val) * 128 + d.val
    omega
  · rfl

/-- Likewise a write-back of the row-sum output. -/
theorem flushed4_eq (t : Fin cfg0.N) (hf : (cfg0.win 4).flush t = true) :
    (dat0 V c).flushed 4 t = ((cfg0.win 4).blk t).view.read (Elt Ideal) (Cert.Spec.lSpec (nsV V c) (keysV V c)) := by
  obtain ⟨h, rfl⟩ := pt_of_flush t ((flush0_4 t).mp hf)
  show (cfg0.win 4).cut (grid0.coords (lastPt h)) ((dat0 V c).after 4 (lastPt h)) = _
  rw [after4_last]
  funext y
  obtain ⟨z, b, z', rfl⟩ : ∃ (z : Fin 1) (b : Fin 128) (z' : Fin 1), y = (ix3 z b z' : S1x128x1.Idx) := ⟨y 0, y 1, y 2, eq_ix3 (n0 := 1) (n1 := 128) (n2 := 1) y⟩
  obtain rfl : z = 0 := Subsingleton.elim _ _
  obtain rfl : z' = 0 := Subsingleton.elim _ _
  have hemb : ((cfg0.win 4).blk (lastPt h)).view.emb (ix3 (0 : Fin 1) b (0 : Fin 1)) = (ix3 h b (0 : Fin 1) : S2x128x1.Idx) := funext fun a => Fin.ext (by
    match a with
    | ⟨0, _⟩ => show win0_4.index (lastPt h) 0 * 1 + 1 * 0 = h.val; rw [(idx_out4 _).1]; show (64 * h.val + 63) / 64 * 1 + 1 * 0 = h.val; omega
    | ⟨1, _⟩ => show win0_4.index (lastPt h) 1 * 128 + 1 * b.val = b.val; rw [(idx_out4 _).2.1]; omega
    | ⟨2, _⟩ => show win0_4.index (lastPt h) 2 * 1 + 1 * 0 = 0; rw [(idx_out4 _).2.2])
  show k0_pay2 (F := Ideal) (lP V c h 63 (by decide)) (ix3 (0 : Fin 1) b (0 : Fin 1)) = Cert.Spec.lSpec (nsV V c) (keysV V c) (((cfg0.win 4).blk (lastPt h)).view.emb (ix3 (0 : Fin 1) b (0 : Fin 1)))
  rw [hemb, Cert.Spec.lSpec_apply]
  unfold k0_pay2
  refine (shapeCast_apply _ shapeCasts_S128x1_S1x128x1 (ix3 (0 : Fin 1) b (0 : Fin 1)) (ix2 b (0 : Fin 1)) ?_).trans ?_
  · rw [Shape.rowMajor_val_two, Shape.rowMajor_val_three]
    show b.val * 1 + 0 = (0 * 128 + b.val) * 1 + 0
    omega
  · rfl

theorem mem_blk3 (t : Fin cfg0.N) (i : S2x128x128.Idx) :
    i ∈ ((cfg0.win 3).blk t).view.set ↔ ∀ a : Fin 3, win0_3.index t a * S1x128x128.size a ≤ (i a).val ∧ (i a).val < win0_3.index t a * S1x128x128.size a + S1x128x128.size a := by
  show i ∈ ((View.whole main_v5_0).slice (win0_3.rect t)).set ↔ _
  rw [View.set_slice_whole, Rect.mem_set_unit]
  exact Iff.rfl

theorem mem_blk4 (t : Fin cfg0.N) (i : S2x128x1.Idx) :
    i ∈ ((cfg0.win 4).blk t).view.set ↔ ∀ a : Fin 3, win0_4.index t a * S1x128x1.size a ≤ (i a).val ∧ (i a).val < win0_4.index t a * S1x128x1.size a + S1x128x1.size a := by
  show i ∈ ((View.whole main_v5_1).slice (win0_4.rect t)).set ↔ _
  rw [View.set_slice_whole, Rect.mem_set_unit]
  exact Iff.rfl

/-- The first region leaves, in its weighted-sum result, each half's accumulated sum: half `h` of the array is written
    back once, after the half's last tile. -/
theorem stats_final3 : (dat0 V c).arrAt 3 cfg0.N = Cert.Spec.accSpec (nsV V c) (keysV V c) (valsV V c) :=
  (dat0 V c).arrAt_eq_of_cover 3 _ (fun t hf => flushed3_eq V c t hf) fun i => by
    have hi0 : (i 0).val < 2 := (i 0).isLt
    have hi1 : (i 1).val < 128 := (i 1).isLt
    have hi2 : (i 2).val < 128 := (i 2).isLt
    refine ⟨lastPt ⟨(i 0).val, hi0⟩, (flush0_3 _).mpr (last_mod _), ?_⟩
    rw [mem_blk3]
    intro a
    match a with
    | ⟨0, _⟩ =>
      show win0_3.index (lastPt ⟨(i 0).val, hi0⟩) (0 : Fin 3) * 1 ≤ (i 0).val ∧ (i 0).val < win0_3.index (lastPt ⟨(i 0).val, hi0⟩) (0 : Fin 3) * 1 + 1
      rw [(idx_out3 _).1]; show (64 * (i 0).val + 63) / 64 * 1 ≤ (i 0).val ∧ (i 0).val < (64 * (i 0).val + 63) / 64 * 1 + 1; omega
    | ⟨1, _⟩ =>
      show win0_3.index (lastPt ⟨(i 0).val, hi0⟩) (1 : Fin 3) * 128 ≤ (i 1).val ∧ (i 1).val < win0_3.index (lastPt ⟨(i 0).val, hi0⟩) (1 : Fin 3) * 128 + 128
      rw [(idx_out3 _).2.1]; omega
    | ⟨2, _⟩ =>
      show win0_3.index (lastPt ⟨(i 0).val, hi0⟩) (2 : Fin 3) * 128 ≤ (i 2).val ∧ (i 2).val < win0_3.index (lastPt ⟨(i 0).val, hi0⟩) (2 : Fin 3) * 128 + 128
      rw [(idx_out3 _).2.2]; omega

/-- The first region leaves, in its row-sum result, each half's accumulated row sums. -/
theorem stats_final4 : (dat0 V c).arrAt 4 cfg0.N = Cert.Spec.lSpec (nsV V c) (keysV V c) :=
  (dat0 V c).arrAt_eq_of_cover 4 _ (fun t hf => flushed4_eq V c t hf) fun i => by
    have hi0 : (i 0).val < 2 := (i 0).isLt
    have hi1 : (i 1).val < 128 := (i 1).isLt
    have hi2 : (i 2).val < 1 := (i 2).isLt
    refine ⟨lastPt ⟨(i 0).val, hi0⟩, (flush0_4 _).mpr (last_mod _), ?_⟩
    rw [mem_blk4]
    intro a
    match a with
    | ⟨0, _⟩ =>
      show win0_4.index (lastPt ⟨(i 0).val, hi0⟩) (0 : Fin 3) * 1 ≤ (i 0).val ∧ (i 0).val < win0_4.index (lastPt ⟨(i 0).val, hi0⟩) (0 : Fin 3) * 1 + 1
      rw [(idx_out4 _).1]; show (64 * (i 0).val + 63) / 64 * 1 ≤ (i 0).val ∧ (i 0).val < (64 * (i 0).val + 63) / 64 * 1 + 1; omega
    | ⟨1, _⟩ =>
      show win0_4.index (lastPt ⟨(i 0).val, hi0⟩) (1 : Fin 3) * 128 ≤ (i 1).val ∧ (i 1).val < win0_4.index (lastPt ⟨(i 0).val, hi0⟩) (1 : Fin 3) * 128 + 128
      rw [(idx_out4 _).2.1]; omega
    | ⟨2, _⟩ =>
      show win0_4.index (lastPt ⟨(i 0).val, hi0⟩) (2 : Fin 3) * 1 ≤ (i 2).val ∧ (i 2).val < win0_4.index (lastPt ⟨(i 0).val, hi0⟩) (2 : Fin 3) * 1 + 1
      rw [(idx_out4 _).2.2]; omega

end Final

end Cert.KernelIdeal.Hand
end
-- ==== Proof.IdealValue.lean ====
/-
  The kernel program's two results are the specification.

  Walking back from the last boundary: the closing reshape reads the second region's age output, which is
  the age pass's value over what the merge stretch left; the merge stretch divides the sum of the first
  region's two partial accumulators by the sum of its two partial normalisers, and those are the tile sums
  of the specification; the normalised state and the argument arrays reach each region as launched.
-/
import proofs.«157376_j6725918785543_2_alg».proof.Proof.HostGlue
import proofs.«157376_j6725918785543_2_alg».proof.Proof.IdealRun
import proofs.«157376_j6725918785543_2_alg».proof.Proof.IdealFrame
import proofs.«157376_j6725918785543_2_alg».proof.Proof.IdealAgeValue
import proofs.«157376_j6725918785543_2_alg».proof.Proof.IdealStatsFinal
import proofs.«157376_j6725918785543_2_alg».proof.Proof.RefValue

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Cert.ReferenceIdeal.RefValue (nsOf)
open Cert.Spec (cc w L wsSpec ageSpecTotal accSpec lSpec)
open scoped BigOperators

variable (m : (ℓ : Loc nD τ sig) → Buf (Elt Ideal) ℓ) (c : Dev nD)

/-- The normalised state of the launch memory. -/
abbrev nsM : Cert.Spec.S128x128.Idx → EReal := nsOf (m ((c : Thread nD τ).loc main_arg0))
/-- The keys of the launch memory. -/
abbrev keysM : Cert.Spec.SNx128.Idx → EReal := m ((c : Thread nD τ).loc main_arg1)
/-- The values of the launch memory. -/
abbrev valsM : Cert.Spec.SNx128.Idx → EReal := m ((c : Thread nD τ).loc main_arg2)
/-- The ages of the launch memory. -/
abbrev ageM : Cert.Spec.SN.Idx → EReal := m ((c : Thread nD τ).loc main_arg3)

/-! ### What the first region is entered from and leaves -/

theorem W3_main_v4 : W3 m c main_v4 = nsM m c := (W3_in m c 0 rfl).trans (V2_main_v4 m c)
theorem W3_main_arg1 : W3 m c main_arg1 = keysM m c := (W3_in m c 1 rfl).trans (V2_main_arg1 m c)
theorem W3_main_arg3 : W3 m c main_arg3 = ageM m c := (W3_of_ne m c main_arg3 (by decide)).trans (V2_main_arg3 m c)

theorem W3_main_v5_0 : W3 m c main_v5_0 = accSpec (nsM m c) (keysM m c) (valsM m c) := by
  have h := stats_final3 (E0 m) c
  have e1 : nsV (E0 m) c = nsM m c := V2_main_v4 m c
  have e2 : keysV (E0 m) c = keysM m c := V2_main_arg1 m c
  have e3 : valsV (E0 m) c = valsM m c := V2_main_arg2 m c
  rw [e1, e2, e3] at h
  exact (W3_arr m c 3).trans h

theorem W3_main_v5_1 : W3 m c main_v5_1 = lSpec (nsM m c) (keysM m c) := by
  have h := stats_final4 (E0 m) c
  have e1 : nsV (E0 m) c = nsM m c := V2_main_v4 m c
  have e2 : keysV (E0 m) c = keysM m c := V2_main_arg1 m c
  rw [e1, e2] at h
  exact (W3_arr m c 4).trans h

/-! ### The weighted sum -/

/-- At the last boundary the first result holds the specification's weighted sum. -/
theorem W6_v17 : W6 m c main_v17 = wsSpec (nsM m c) (keysM m c) (valsM m c) :=
  calc W6 m c main_v17
    _ = W5 m c main_v17 := hostOps2_main_v17 (W5 m c)
    _ = W4 m c main_v17 := W5_of_ne m c main_v17 (by decide)
    _ = wsSpec (nsM m c) (keysM m c) (valsM m c) :=
        hostOps1_v17_eq_wsSpec (W3 m c) _ _ _ (W3_main_v5_0 m c) (W3_main_v5_1 m c)

/-! ### The new ages -/

theorem W4_main_v4 : W4 m c main_v4 = nsM m c := (hostOps1_main_v4 (W3 m c)).trans (W3_main_v4 m c)
theorem W4_main_arg1 : W4 m c main_arg1 = keysM m c := (hostOps1_main_arg1 (W3 m c)).trans (W3_main_arg1 m c)

/-- At the last boundary the second result holds the specification's new ages. -/
theorem W6_v20 : W6 m c main_v20 = ageSpecTotal (nsM m c) (keysM m c) (ageM m c) := by
  funext j
  obtain ⟨n, rfl⟩ : ∃ n : Fin 1048576, j = ix1 n := ⟨j 0, ValueIdx.eq_ix1 j⟩
  refine (hostOps2_v20_read (W5 m c) n).trans ?_
  have h5 : W5 m c main_v19 = Age.ageSpec (nsM m c) (keysM m c) (W4 m c main_v18) (W4 m c main_v15) := by
    have h := Age.age_final (E1 m) c
    have e1 : E1 m c main_v4 = nsM m c := W4_main_v4 m c
    have e2 : E1 m c main_arg1 = keysM m c := W4_main_arg1 m c
    rw [e1, e2] at h
    exact (W5_arr m c 4).trans h
  rw [h5, Age.ageSpec_apply]
  exact ageSpec_eq_total (nsM m c) (keysM m c) (ageM m c) (W4 m c main_v18) (W4 m c main_v15) Age.invTemp rfl
    (fun b => hostOps1_v15_eq_L (W3 m c) _ _ (W3_main_v5_1 m c) b)
    (fun n => (hostOps1_v18_read (W3 m c) n).trans (congrFun (W3_main_arg3 m c) (ix1 n))) n

end Cert.KernelIdeal.Hand

end
-- ==== Proof.Finite.lean ====
/-
  From the precondition to real numbers.

  The precondition `finite_inputs` is the conjunction, over the four argument arrays, of
  `all (|a| < +∞)`. When it evaluates to true, every entry `x` of every argument satisfies
  `max x (-x) < ⊤` in the extended reals, which excludes both infinities: `x` is a real number.
-/
import proofs.«157376_j6725918785543_2_alg».proof.Pre_finite_inputs
import proofs.«157376_j6725918785543_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs
open Cert.Spec (IsReal)

/-- The scalar shape has exactly one index. -/
instance : Subsingleton S_.Idx := ⟨fun a b => funext fun d => d.elim0⟩

/-- An extended real whose absolute value is strictly below `+∞` is a real. -/
theorem real_of_abs_lt_top (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- If `all (|a| < +∞)` is true of an array, every entry of the array is a real. -/
theorem isReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) : IsReal a := by
  intro i
  have hi := Host.reduce_andi_all _ _ hr hu _ e i
  rw [ValueIdx.cmpf_apply, broadcastInDim_apply _ hb _ i ValueIdx.ix0 (fun d => d.elim0)] at hi
  exact real_of_abs_lt_top (a i) hi

variable [Cert.Pre_finite_inputs.Facts]

/-- The precondition makes every entry of each of the four arguments a real. -/
theorem finite_inputs (a0 : FVec Ideal S128x128 .f32) (a1 a2 : FVec Ideal S1048576x128 .f32) (a3 : FVec Ideal S1048576 .f32)
    (h : Cert.Pre_finite_inputs.fn (F := Ideal) a0 a1 a2 a3 = fun _ => 1#1) :
    IsReal a0 ∧ IsReal a1 ∧ IsReal a2 ∧ IsReal a3 := by
  have h' := congrFun h ValueIdx.ix0
  dsimp only [Cert.Pre_finite_inputs.fn, Cert.Pre_finite_inputs.fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨isReal_of_all a0 _ _ _ h0, isReal_of_all a1 _ _ _ h1, isReal_of_all a2 _ _ _ h2, isReal_of_all a3 _ _ _ h3⟩

end Cert.Finite

end
-- ==== Proof.Algebraic.lean ====
/-
  The algebraic claim: at the ideal instance, from memories that agree on the four arguments, the kernel
  program and the reference both run to the end, end with equal results, and leave their arguments unchanged.

  Both programs' results are the specification of the launch memory's arguments: the kernel program's two
  result buffers at its last boundary, and, because the precondition makes every argument entry a real, the
  reference's two results (softmax is shift invariant and the temperature's reciprocal is exact).
-/
import proofs.«157376_j6725918785543_2_alg».proof.Defs
import proofs.«157376_j6725918785543_2_alg».proof.Proof.IdealValue
import proofs.«157376_j6725918785543_2_alg».proof.Proof.RefValue
import proofs.«157376_j6725918785543_2_alg».proof.Proof.Finite

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Cert.Spec (wsSpec ageSpecTotal)

/-- Equal results at the ideal instance. -/
theorem algebraic [hPre_finite_inputs : Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' hpre hagree
  refine ⟨fun c => wsSpec (nsM m c) (keysM m c) (valsM m c), fun c => ageSpecTotal (nsM m c) (keysM m c) (ageM m c), ?_, ?_⟩
  · refine (θ_run Cert.KernelIdeal.defs _ _).mono (fun r h c => ⟨?_, ?_, ?_, ?_, ?_, ?_⟩) (run_all (F := Ideal) m ρ)
    · exact (h c _ (mem_uc main_v17 (by decide))).trans (W6_v17 m c)
    · exact (h c _ (mem_uc main_v20 (by decide))).trans (W6_v20 m c)
    · exact (h c _ (mem_uc main_arg0 (by decide))).trans (W6_main_arg0 m c)
    · exact (h c _ (mem_uc main_arg1 (by decide))).trans (W6_main_arg1 m c)
    · exact (h c _ (mem_uc main_arg2 (by decide))).trans (W6_main_arg2 m c)
    · exact (h c _ (mem_uc main_arg3 (by decide))).trans (W6_main_arg3 m c)
  · refine (θ_run Cert.ReferenceIdeal.defs _ _).mono (fun r h c => ?_) (Cert.ReferenceIdeal.Value.run (F := Ideal) m' ρ')
    obtain ⟨h20, h22, hargs⟩ := h c
    obtain ⟨a0, a1, a2, a3⟩ := hagree c
    obtain ⟨f0, f1, f2, _⟩ := Cert.Finite.finite_inputs _ _ _ _ (hpre c)
    refine ⟨h20.trans ?_, h22.trans ?_, hargs⟩
    · rw [a0, a1, a2]
      exact (Cert.ReferenceIdeal.Read.val_main_v20_eq _ _ _).trans
        (Cert.ReferenceIdeal.RefValue.val_main_v20_eq_wsSpec _ _ _ f0 f1 f2)
    · rw [a0, a1, a3]
      exact (Cert.ReferenceIdeal.Read.val_main_v22_eq _ _ _).trans
        (Cert.ReferenceIdeal.RefValue.val_main_v22_eq_ageSpecTotal _ _ _ f0 f1)

end Cert.KernelIdeal.Hand

end
-- ==== Proof.lean ====
/-
  A memory-attention read against its plain reference, at the ideal instance.

  Both programs normalise the 128 query rows, score them against 1048576 key rows, weight the value rows by the softmax of
  the scores divided by the temperature, and add to each key's age the total weight it received. The reference divides the
  scores by the temperature `D` and takes the softmax shifted by each row's maximum. The kernel multiplies by the named
  reciprocal `inv_temp = 1 / D` and shifts by that same constant; it walks the key rows in 128 tiles of 8192, 64 per half,
  accumulating per half the unnormalised weighted sum of the value rows and the weights' row sums, adds the two halves on
  the host and divides; a second pass recomputes the weights per tile of 16384 key rows, divides by the merged row sums and
  adds their column sums to the ages.

  Over the extended reals with finite inputs every score is a real, every weight a positive real, so the softmax does not
  depend on the shift, `x / D = x · (1 / D)`, a sum of quotients by one positive real is the quotient of the sum, and finite
  sums may be regrouped by tiles and halves: both programs compute
      ws[b, d] = (∑ₙ w[b, n] · values[n, d]) / ∑ₙ w[b, n],      age'[n] = age[n] + ∑_b w[b, n] / ∑ₙ' w[b, n'],
  with `w[b, n] = exp (⟨ns_b, keys_n⟩ · inv_temp − inv_temp)`.

  The modules: `Spec`, `TileSpec` state these functions; `RefValue`, `Finite`, `RefFrame` read the reference; `IdealStats*`
  and `IdealAge*` are the two kernel regions (what every grid point leaves, the invariant carrying the two accumulators
  between points, the arrays each region ends with); `IdealRun` runs the whole entry function over the two regions;
  `HostGlue`, `IdealValue`, `Algebraic` join the sides; the `Bits*` modules are the same frame argument for the word-level
  program.
-/
import proofs.«157376_j6725918785543_2_alg».proof.Defs
import proofs.«157376_j6725918785543_2_alg».proof.Proof.Gen.Kernel
import proofs.«157376_j6725918785543_2_alg».proof.Proof.Gen.KernelIdeal
import proofs.«157376_j6725918785543_2_alg».proof.Proof.Gen.ReferenceIdeal
import proofs.«157376_j6725918785543_2_alg».proof.Proof.Gen.ReferenceIdeal.Run
import proofs.«157376_j6725918785543_2_alg».proof.Proof.Gen.ReferenceIdeal.Read
import proofs.«157376_j6725918785543_2_alg».proof.Proof.Gen.Pre_finite_inputs
import proofs.«157376_j6725918785543_2_alg».proof.Proof.Small
import proofs.«157376_j6725918785543_2_alg».proof.Proof.RefFrame
import proofs.«157376_j6725918785543_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Small.frame_p, Cert.Proof.Small.frame_pi, Cert.ReferenceIdeal.RefValue.frame_ri, Cert.Proof.Small.preserves,
    Cert.KernelIdeal.Hand.algebraic⟩

end Cert.Proof

end
